-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v71) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v134) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S2x800000 : Shape := ⟨2, ![2, 800000]⟩
abbrev S800000 : Shape := ⟨1, ![800000]⟩
abbrev S50000x128 : Shape := ⟨2, ![50000, 128]⟩
abbrev S512x128 : Shape := ⟨2, ![512, 128]⟩
abbrev S128 : Shape := ⟨1, ![128]⟩
abbrev S128x128 : Shape := ⟨2, ![128, 128]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S800000 : S_.BroadcastsInDim S800000 (![] : Fin 0 → Fin S800000.rank)
  reducesTo_S800000_S_d0 : S800000.ReducesTo [0] S_
  bcast_S_S50000x128 : S_.BroadcastsInDim S50000x128 (![] : Fin 0 → Fin S50000x128.rank)
  reducesTo_S50000x128_S_d0_1 : S50000x128.ReducesTo [0, 1] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part2 {F : FTy → Type} [FloatOps F] (main_arg8 : FVec F S128x128 .f32) (main_arg9 : FVec F S128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg5 : FVec F S128 .f32) (main_arg6 : FVec F S128x128 .f32) (main_arg7 : FVec F S128 .f32) (main_arg8 : FVec F S128x128 .f32) (main_arg9 : FVec F S128 .f32) (main_v13 : IVec S_ 1) (main_v16 : IVec S512x128 1) : IVec S_ 1 :=
  let main_c_5 : IVec S_ 1 := constantI S_ 1 1#1
  let main_v17 : IVec S_ 1 := (fun x v => Host.reduce IntOp.andi x v reducesTo_S512x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_v33

def fn {F : FTy → Type} [FloatOps F] (main_arg0 : FVec F S50000x512 .f32) (main_arg1 : IVec S2x800000 32) (main_arg2 : FVec F S800000 .f32) (main_arg3 : FVec F S50000x128 .f32) (main_arg4 : FVec F S512x128 .f32) (main_arg5 : FVec F S128 .f32) (main_arg6 : FVec F S128x128 .f32) (main_arg7 : FVec F S128 .f32) (main_arg8 : FVec F S128x128 .f32) (main_arg9 : FVec F S128 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S50000x128 .f32 := Host.absf main_arg3
  let main_cst_2 : FVec F S_ .f32 := constant S_ .f32 0x7F800000#32
  let main_v10 : FVec F S50000x128 .f32 := broadcastInDim S50000x128 ![] bcast_S_S50000x128 main_cst_2
  let main_v11 : IVec S50000x128 1 := cmpf .olt main_v9 main_v10
  let main_c_3 : IVec S_ 1 := constantI S_ 1 1#1
  let main_v12 : IVec S_ 1 := (fun x v => Host.reduce IntOp.andi x v reducesTo_S50000x128_S_d0_1 h_S_) main_v11 main_c_3
  let main_v13 : IVec S_ 1 := andi main_v8 main_v12
  let main_v14 : FVec F S512x128 .f32 := Host.absf main_arg4
  let main_cst_4 : FVec F S_ .f32 := constant S_ .f32 0x7F800000#32
  let main_v15 : FVec F S512x128 .f32 := broadcastInDim S512x128 ![] bcast_S_S512x128 main_cst_4
  let main_v16 : IVec S512x128 1 := cmpf .olt main_v14 main_v15
  fn_part1 (F := F) main_arg5 main_arg6 main_arg7 main_arg8 main_arg9 main_v13 main_v16
-- ==== Kernel.lean ====
abbrev S50000x512 : Shape := ⟨2, ![50000, 512]⟩
abbrev S2x800000 : Shape := ⟨2, ![2, 800000]⟩
abbrev S800000 : Shape := ⟨1, ![800000]⟩
abbrev S50000x128 : Shape := ⟨2, ![50000, 128]⟩
abbrev S512x128 : Shape := ⟨2, ![512, 128]⟩
abbrev S128 : Shape := ⟨1, ![128]⟩
abbrev S128x128 : Shape := ⟨2, ![128, 128]⟩
abbrev S50000 : Shape := ⟨1, ![50000]⟩
abbrev S1x800000 : Shape := ⟨2, ![1, 800000]⟩
abbrev S850000 : Shape := ⟨1, ![850000]⟩
abbrev S_ : Shape := ⟨0, ![]⟩
abbrev S850000x1 : Shape := ⟨2, ![850000, 1]⟩
abbrev S5000x512 : Shape := ⟨2, ![5000, 512]⟩
abbrev S5000x128 : Shape := ⟨2, ![5000, 128]⟩
abbrev S50000x1 : Shape := ⟨2, ![50000, 1]⟩
abbrev S850000x128 : Shape := ⟨2, ![850000, 128]⟩
abbrev S1x128 : Shape := ⟨2, ![1, 128]⟩
abbrev S128x256 : Shape := ⟨2, ![128, 256]⟩
abbrev S256 : Shape := ⟨1, ![256]⟩
abbrev S50000x256 : Shape := ⟨2, ![50000, 256]⟩
abbrev S5000x256 : Shape := ⟨2, ![5000, 256]⟩
abbrev S850000x256 : Shape := ⟨2, ![850000, 256]⟩
abbrev S1x256 : Shape := ⟨2, ![1, 256]⟩

abbrev nBuf : Space → Nat
  | .hbm => 97
  | .vmem => 10
  | .smem => 0
  | _ => 0

abbrev bufTy : (tb : Table) → Fin (tcTables nBuf tb) → BufTy
  | .hbm, ⟨0, _⟩ => ⟨S50000x512, .f32⟩
  | .hbm, ⟨1, _⟩ => ⟨S2x800000, .i32⟩
  | .hbm, ⟨2, _⟩ => ⟨S800000, .f32⟩
  | .hbm, ⟨3, _⟩ => ⟨S50000x128, .f32⟩
  | .hbm, ⟨4, _⟩ => ⟨S512x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S50000, .i32⟩
  | .hbm, ⟨11, _⟩ => ⟨S1x800000, .i32⟩
  | .hbm, ⟨12, _⟩ => ⟨S800000, .i32⟩
  | .hbm, ⟨13, _⟩ => ⟨S850000, .i32⟩
  | .hbm, ⟨14, _⟩ => ⟨S1x800000, .i32⟩
  | .hbm, ⟨15, _⟩ => ⟨S800000, .i32⟩
  | .hbm, ⟨16, _⟩ => ⟨S850000, .i32⟩
  | .hbm, ⟨17, _⟩ => ⟨S_, .f32⟩
  | .hbm, ⟨18, _⟩ => ⟨S50000, .f32⟩
  | .hbm, ⟨19, _⟩ => ⟨S850000, .f32⟩
  | .hbm, ⟨20, _⟩ => ⟨S_, .f32⟩
  | .hbm, ⟨21, _⟩ => ⟨S50000, .f32⟩
  | .hbm, ⟨22, _⟩ => ⟨S850000x1, .i32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .i1⟩
  | .hbm, ⟨27, _⟩ => ⟨S50000, .f32⟩
  | .hbm, ⟨28, _⟩ => ⟨S_, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S50000x128, .f32⟩
  | .hbm, ⟨33, _⟩ => ⟨S50000x1, .f32⟩
  | .hbm, ⟨34, _⟩ => ⟨S50000x128, .f32⟩
  | .hbm, ⟨35, _⟩ => ⟨S50000x128, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000x128, .f32⟩
  | .hbm, ⟨45, _⟩ => ⟨S850000x1, .f32⟩
  | .hbm, ⟨46, _⟩ => ⟨S850000x128, .f32⟩
  | .hbm, ⟨47, _⟩ => ⟨S850000x128, .f32⟩
  | .hbm, ⟨48, _⟩ => ⟨S_, .f32⟩
  | .hbm, ⟨49, _⟩ => ⟨S50000x128, .f32⟩
  | .hbm, ⟨50, _⟩ => ⟨S850000x1, .i32⟩
  | .hbm, ⟨51, _⟩ => ⟨S50000x128, .f32⟩
  | .hbm, ⟨52, _⟩ => ⟨S50000x1, .f32⟩
  | .hbm, ⟨53, _⟩ => ⟨S50000x128, .f32⟩
  | .hbm, ⟨54, _⟩ => ⟨S50000x128, .f32⟩
  | .hbm, ⟨55, _⟩ => ⟨S1x128, .f32⟩
  | .hbm, ⟨56, _⟩ => ⟨S50000x128, .f32⟩
  | .hbm, ⟨57, _⟩ => ⟨S50000x128, .f32⟩
  | .hbm, ⟨58, _⟩ => ⟨S_, .f32⟩
  | .hbm, ⟨59, _⟩ => ⟨S50000x128, .f32⟩
  | .hbm, ⟨60, _⟩ => ⟨S50000x128, .f32⟩
  | .hbm, ⟨61, _⟩ => ⟨S128x256, .f32⟩
  | .hbm, ⟨62, _⟩ => ⟨S256, .f32⟩
  | .hbm, ⟨63, _⟩ => ⟨S50000x256, .f32⟩
  | .hbm, ⟨64, _⟩ => ⟨S50000x1, .f32⟩
  | .hbm, ⟨65, _⟩ => ⟨S50000x256, .f32⟩
  | .hbm, ⟨66, _⟩ => ⟨S50000x256, .f32⟩
  | .hbm, ⟨67, _⟩ => ⟨S_, .i32⟩
  | .hbm, ⟨68, _⟩ => ⟨S850000, .i32⟩
  | .hbm, ⟨69, _⟩ => ⟨S850000, .i1⟩
  | .hbm, ⟨70, _⟩ => ⟨S_, .i32⟩
  | .hbm, ⟨71, _⟩ => ⟨S850000, .i32⟩
  | .hbm, ⟨72, _⟩ => ⟨S850000, .i32⟩
  | .hbm, ⟨73, _⟩ => ⟨S850000, .i32⟩
  | .hbm, ⟨74, _⟩ => ⟨S850000x1, .i32⟩
  | .hbm, ⟨75, _⟩ => ⟨S850000x256, .f32⟩
  | .hbm, ⟨76, _⟩ => ⟨S850000x1, .f32⟩
  | .hbm, ⟨77, _⟩ => ⟨S850000x256, .f32⟩
  | .hbm, ⟨78, _⟩ => ⟨S850000x256, .f32⟩
  | .hbm, ⟨79, _⟩ => ⟨S_, .f32⟩
  | .hbm, ⟨80, _⟩ => ⟨S50000x256, .f32⟩
  | .hbm, ⟨81, _⟩ => ⟨S850000x1, .i32⟩
  | .hbm, ⟨82, _⟩ => ⟨S50000x256, .f32⟩
  | .hbm, ⟨83, _⟩ => ⟨S50000x1, .f32⟩
  | .hbm, ⟨84, _⟩ => ⟨S50000x256, .f32⟩
  | .hbm, ⟨85, _⟩ => ⟨S50000x256, .f32⟩
  | .hbm, ⟨86, _⟩ => ⟨S1x256, .f32⟩
  | .hbm, ⟨87, _⟩ => ⟨S50000x256, .f32⟩
  | .hbm, ⟨88, _⟩ => ⟨S50000x256, .f32⟩
  | .hbm, ⟨89, _⟩ => ⟨S50000x128, .f32⟩
  | .hbm, ⟨90, _⟩ => ⟨S50000x128, .f32⟩
  | .hbm, ⟨91, _⟩ => ⟨S_, .f32⟩
  | .hbm, ⟨92, _⟩ => ⟨S50000x128, .f32⟩
  | .hbm, ⟨93, _⟩ => ⟨S50000x128, .f32⟩
  | .hbm, ⟨94, _⟩ => ⟨S50000x128, .f32⟩
  | .hbm, ⟨95, _⟩ => ⟨S50000x128, .f32⟩
  | .hbm, ⟨96, _⟩ => ⟨S50000x128, .f32⟩
  | .local _ .vmem, ⟨0, _⟩ => ⟨S5000x512, .f32⟩
  | .local _ .vmem, ⟨1, _⟩ => ⟨S5000x512, .f32⟩
  | .local _ .vmem, ⟨2, _⟩ => ⟨S512x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x256, .f32⟩
  | .local _ .vmem, ⟨8, _⟩ => ⟨S5000x256, .f32⟩
  | .local _ .vmem, ⟨9, _⟩ => ⟨S5000x256, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_c : Ref sig .tc := ⟨.hbm, 36, rfl⟩
abbrev main_v20 : Ref sig .tc := ⟨.hbm, 37, rfl⟩
abbrev main_v21 : Ref sig .tc := ⟨.hbm, 38, rfl⟩
abbrev main_c_3 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_4 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_call1_cst : Ref sig .tc := ⟨.hbm, 58, rfl⟩
abbrev main_call1_v0 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_c_5 : Ref sig .tc := ⟨.hbm, 67, rfl⟩
abbrev main_v46 : Ref sig .tc := ⟨.hbm, 68, rfl⟩
abbrev main_v47 : Ref sig .tc := ⟨.hbm, 69, rfl⟩
abbrev main_c_6 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_7 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_cst_8 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S50000 : S_.BroadcastsInDim S50000 (![] : Fin 0 → Fin S50000.rank)
  bcast_S850000_S850000x1_0 : S850000.BroadcastsInDim S850000x1 (![0] : Fin 1 → Fin S850000x1.rank)
  inb_S5000x512_S5000x512_0_0 : ∀ a, (![0, 0] : Fin 2 → Nat) a + S5000x512.size a ≤ S5000x512.size a
  h_S5000x512 : 0 < S5000x512.numel
  inb_S512x128_S512x128_0_0 : ∀ a, (![0, 0] : Fin 2 → Nat) a + S512x128.size a ≤ S512x128.size a
  h_S512x128 : 0 < S512x128.numel
  inb_S5000x128_S5000x128_0_0 : ∀ a, (![0, 0] : Fin 2 → Nat) a + S5000x128.size a ≤ S5000x128.size a
  h_S5000x128 : 0 < S5000x128.numel
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S850000 : S_.BroadcastsInDim S850000 (![] : Fin 0 → Fin S850000.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  concatenates_S128x128_S128x128_S128x256_d1 : Shape.Concatenates [S128x128, S128x128] S128x256 1
  concatenates_S128_S128_S256_d0 : Shape.Concatenates [S128, S128] S256 0
  shapeCasts_S5000x128_S5000x128 : S5000x128.ShapeCasts S5000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S5000x256_S5000x256_0_0 : ∀ a, (![0, 0] : Fin 2 → Nat) a + S5000x256.size a ≤ S5000x256.size a
  h_S5000x256 : 0 < S5000x256.numel
  bcast_S50000x1_S50000x256_0_1 : S50000x1.BroadcastsInDim S50000x256 (![0, 1] : Fin 2 → Fin S50000x256.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  slices_S50000x256_S50000x128_0_0 : S50000x256.Slices ![0, 0] S50000x128
  slices_S50000x256_S50000x128_0_128 : S50000x256.Slices ![0, 128] S50000x128
  scatter_S50000_S850000x1_S850000_n_0_0_1_wf : ScatterDims.WF S50000 S850000x1 S850000 [] [0] [0] 1
  dot_S5000x512_S512x128_S5000x128_1_0_0_1_n_n_wf : DotDims.WF S5000x512 S512x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x256_S5000x256_1_0_0_1_n_n_wf : DotDims.WF S5000x128 S128x256 S5000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S50000x512.size a
  hwx0_0 : ∀ i : grid0.Coords, EltTy.bits .f32 = 32 ∨ (Rect.block (s := S50000x512) S5000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x256.size a ≤ S128x256.size a
  hwx1_1 : ∀ i : grid1.Coords, EltTy.bits .f32 = 32 ∨ (Rect.block (s := S128x256) S128x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x256.size a ≤ S50000x256.size a
  hwx1_2 : ∀ i : grid1.Coords, EltTy.bits .f32 = 32 ∨ (Rect.block (s := S50000x256) S5000x256.size (cc1_transform_2 i) (hinb1_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S5000x512_S512x128_S5000x128_1_0_0_1_n_n : DotDims S5000x512 S512x128 S5000x128 where
  lhsContracting := [1]
  rhsContracting := [0]
  lhsNonContracting := [0]
  rhsNonContracting := [1]
  lhsBatch := []
  rhsBatch := []
  wf := dot_S5000x512_S512x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf

abbrev win0_0 : Pipeline.Window sig grid0 :=
  Pipeline.Window.ofSpec (Memref.whole main_arg0) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v16) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v39) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v40) S128x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v42) S5000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x512 : Shape := ⟨2, ![50000, 512]⟩
abbrev S2x800000 : Shape := ⟨2, ![2, 800000]⟩
abbrev S800000 : Shape := ⟨1, ![800000]⟩
abbrev S50000x128 : Shape := ⟨2, ![50000, 128]⟩
abbrev S512x128 : Shape := ⟨2, ![512, 128]⟩
abbrev S128 : Shape := ⟨1, ![128]⟩
abbrev S128x128 : Shape := ⟨2, ![128, 128]⟩
abbrev S50000 : Shape := ⟨1, ![50000]⟩
abbrev S1x800000 : Shape := ⟨2, ![1, 800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩

abbrev nBuf : Space → Nat
  | .hbm => 185
  | .vmem => 0
  | .smem => 0
  | _ => 0

abbrev hbmTy0_0 (i : Nat) : BufTy := match i % 128 with
  | 0 => ⟨S50000x512, .f32⟩
  | 1 => ⟨S2x800000, .i32⟩
  | 2 => ⟨S800000, .f32⟩
  | 3 => ⟨S50000x128, .f32⟩
  | 4 => ⟨S512x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S50000, .i32⟩
  | 11 => ⟨S1x800000, .i32⟩
  | 12 => ⟨S800000, .i32⟩
  | 13 => ⟨S850000, .i32⟩
  | 14 => ⟨S1x800000, .i32⟩
  | 15 => ⟨S800000, .i32⟩
  | 16 => ⟨S850000, .i32⟩
  | 17 => ⟨S_, .f32⟩
  | 18 => ⟨S50000, .f32⟩
  | 19 => ⟨S850000, .f32⟩
  | 20 => ⟨S_, .f32⟩
  | 21 => ⟨S50000, .f32⟩
  | 22 => ⟨S850000x1, .i32⟩
  | 23 => ⟨S50000, .f32⟩
  | 24 => ⟨S_, .f32⟩
  | 25 => ⟨S50000, .f32⟩
  | 26 => ⟨S50000, .i1⟩
  | 27 => ⟨S50000, .f32⟩
  | 28 => ⟨S_, .f32⟩
  | 29 => ⟨S_, .f32⟩
  | 30 => ⟨S50000, .f32⟩
  | 31 => ⟨S50000, .f32⟩
  | 32 => ⟨S_, .i32⟩
  | 33 => ⟨S850000, .i32⟩
  | 34 => ⟨S850000, .i1⟩
  | 35 => ⟨S_, .i32⟩
  | 36 => ⟨S850000, .i32⟩
  | 37 => ⟨S850000, .i32⟩
  | 38 => ⟨S850000, .i32⟩
  | 39 => ⟨S850000x1, .i32⟩
  | 40 => ⟨S850000, .f32⟩
  | 41 => ⟨S850000, .f32⟩
  | 42 => ⟨S_, .i32⟩
  | 43 => ⟨S850000, .i32⟩
  | 44 => ⟨S850000, .i1⟩
  | 45 => ⟨S_, .i32⟩
  | 46 => ⟨S850000, .i32⟩
  | 47 => ⟨S850000, .i32⟩
  | 48 => ⟨S850000, .i32⟩
  | 49 => ⟨S850000x1, .i32⟩
  | 50 => ⟨S850000, .f32⟩
  | 51 => ⟨S850000, .f32⟩
  | 52 => ⟨S50000x128, .f32⟩
  | 53 => ⟨S_, .i32⟩
  | 54 => ⟨S850000, .i32⟩
  | 55 => ⟨S850000, .i1⟩
  | 56 => ⟨S_, .i32⟩
  | 57 => ⟨S850000, .i32⟩
  | 58 => ⟨S850000, .i32⟩
  | 59 => ⟨S850000, .i32⟩
  | 60 => ⟨S850000x1, .i32⟩
  | 61 => ⟨S850000x128, .f32⟩
  | 62 => ⟨S850000x1, .f32⟩
  | 63 => ⟨S850000x128, .f32⟩
  | 64 => ⟨S850000x128, .f32⟩
  | 65 => ⟨S_, .f32⟩
  | 66 => ⟨S50000x128, .f32⟩
  | 67 => ⟨S850000x1, .i32⟩
  | 68 => ⟨S50000x128, .f32⟩
  | 69 => ⟨S1x128, .f32⟩
  | 70 => ⟨S50000x128, .f32⟩
  | 71 => ⟨S50000x128, .f32⟩
  | 72 => ⟨S_, .f32⟩
  | 73 => ⟨S50000x128, .f32⟩
  | 74 => ⟨S50000x128, .f32⟩
  | 75 => ⟨S_, .f32⟩
  | 76 => ⟨S50000, .f32⟩
  | 77 => ⟨S850000x1, .i32⟩
  | 78 => ⟨S50000, .f32⟩
  | 79 => ⟨S_, .f32⟩
  | 80 => ⟨S50000, .f32⟩
  | 81 => ⟨S50000, .i1⟩
  | 82 => ⟨S50000, .f32⟩
  | 83 => ⟨S_, .f32⟩
  | 84 => ⟨S_, .f32⟩
  | 85 => ⟨S50000, .f32⟩
  | 86 => ⟨S50000, .f32⟩
  | 87 => ⟨S_, .i32⟩
  | 88 => ⟨S850000, .i32⟩
  | 89 => ⟨S850000, .i1⟩
  | 90 => ⟨S_, .i32⟩
  | 91 => ⟨S850000, .i32⟩
  | 92 => ⟨S850000, .i32⟩
  | 93 => ⟨S850000, .i32⟩
  | 94 => ⟨S850000x1, .i32⟩
  | 95 => ⟨S850000, .f32⟩
  | 96 => ⟨S850000, .f32⟩
  | 97 => ⟨S_, .i32⟩
  | 98 => ⟨S850000, .i32⟩
  | 99 => ⟨S850000, .i1⟩
  | 100 => ⟨S_, .i32⟩
  | 101 => ⟨S850000, .i32⟩
  | 102 => ⟨S850000, .i32⟩
  | 103 => ⟨S850000, .i32⟩
  | 104 => ⟨S850000x1, .i32⟩
  | 105 => ⟨S850000, .f32⟩
  | 106 => ⟨S850000, .f32⟩
  | 107 => ⟨S50000x128, .f32⟩
  | 108 => ⟨S_, .i32⟩
  | 109 => ⟨S850000, .i32⟩
  | 110 => ⟨S850000, .i1⟩
  | 111 => ⟨S_, .i32⟩
  | 112 => ⟨S850000, .i32⟩
  | 113 => ⟨S850000, .i32⟩
  | 114 => ⟨S850000, .i32⟩
  | 115 => ⟨S850000x1, .i32⟩
  | 116 => ⟨S850000x128, .f32⟩
  | 117 => ⟨S850000x1, .f32⟩
  | 118 => ⟨S850000x128, .f32⟩
  | 119 => ⟨S850000x128, .f32⟩
  | 120 => ⟨S_, .f32⟩
  | 121 => ⟨S50000x128, .f32⟩
  | 122 => ⟨S850000x1, .i32⟩
  | 123 => ⟨S50000x128, .f32⟩
  | 124 => ⟨S1x128, .f32⟩
  | 125 => ⟨S50000x128, .f32⟩
  | 126 => ⟨S50000x128, .f32⟩
  | 127 => ⟨S_, .f32⟩
  | _ => ⟨S50000x512, .f32⟩

abbrev hbmTy0_1 (i : Nat) : BufTy := match i % 128 with
  | 0 => ⟨S50000, .f32⟩
  | 1 => ⟨S850000x1, .i32⟩
  | 2 => ⟨S50000, .f32⟩
  | 3 => ⟨S_, .f32⟩
  | 4 => ⟨S50000, .f32⟩
  | 5 => ⟨S50000, .i1⟩
  | 6 => ⟨S50000, .f32⟩
  | 7 => ⟨S_, .f32⟩
  | 8 => ⟨S_, .f32⟩
  | 9 => ⟨S50000, .f32⟩
  | 10 => ⟨S50000, .f32⟩
  | 11 => ⟨S_, .i32⟩
  | 12 => ⟨S850000, .i32⟩
  | 13 => ⟨S850000, .i1⟩
  | 14 => ⟨S_, .i32⟩
  | 15 => ⟨S850000, .i32⟩
  | 16 => ⟨S850000, .i32⟩
  | 17 => ⟨S850000, .i32⟩
  | 18 => ⟨S850000x1, .i32⟩
  | 19 => ⟨S850000, .f32⟩
  | 20 => ⟨S850000, .f32⟩
  | 21 => ⟨S_, .i32⟩
  | 22 => ⟨S850000, .i32⟩
  | 23 => ⟨S850000, .i1⟩
  | 24 => ⟨S_, .i32⟩
  | 25 => ⟨S850000, .i32⟩
  | 26 => ⟨S850000, .i32⟩
  | 27 => ⟨S850000, .i32⟩
  | 28 => ⟨S850000x1, .i32⟩
  | 29 => ⟨S850000, .f32⟩
  | 30 => ⟨S850000, .f32⟩
  | 31 => ⟨S50000x128, .f32⟩
  | 32 => ⟨S_, .i32⟩
  | 33 => ⟨S850000, .i32⟩
  | 34 => ⟨S850000, .i1⟩
  | 35 => ⟨S_, .i32⟩
  | 36 => ⟨S850000, .i32⟩
  | 37 => ⟨S850000, .i32⟩
  | 38 => ⟨S850000, .i32⟩
  | 39 => ⟨S850000x1, .i32⟩
  | 40 => ⟨S850000x128, .f32⟩
  | 41 => ⟨S850000x1, .f32⟩
  | 42 => ⟨S850000x128, .f32⟩
  | 43 => ⟨S850000x128, .f32⟩
  | 44 => ⟨S_, .f32⟩
  | 45 => ⟨S50000x128, .f32⟩
  | 46 => ⟨S850000x1, .i32⟩
  | 47 => ⟨S50000x128, .f32⟩
  | 48 => ⟨S1x128, .f32⟩
  | 49 => ⟨S50000x128, .f32⟩
  | 50 => ⟨S50000x128, .f32⟩
  | 51 => ⟨S_, .f32⟩
  | 52 => ⟨S50000x128, .f32⟩
  | 53 => ⟨S50000x128, .f32⟩
  | 54 => ⟨S50000x128, .f32⟩
  | 55 => ⟨S50000x128, .f32⟩
  | 56 => ⟨S50000x128, .f32⟩
  | _ => ⟨S50000x512, .f32⟩

abbrev hbmTy (i : Nat) : BufTy := match i / 128 with
  | 0 => hbmTy0_0 i
  | 1 => hbmTy0_1 i
  | _ => ⟨S50000x512, .f32⟩

abbrev bufTy : (tb : Table) → Fin (tcTables nBuf tb) → BufTy
  | .hbm, ⟨i, _⟩ => hbmTy i
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v15 : Ref sig .tc := ⟨.hbm, 31, rfl⟩
abbrev main_c : Ref sig .tc := ⟨.hbm, 32, rfl⟩
abbrev main_v16 : Ref sig .tc := ⟨.hbm, 33, rfl⟩
abbrev main_v17 : Ref sig .tc := ⟨.hbm, 34, rfl⟩
abbrev main_c_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c_4 : Ref sig .tc := ⟨.hbm, 42, rfl⟩
abbrev main_v24 : Ref sig .tc := ⟨.hbm, 43, rfl⟩
abbrev main_v25 : Ref sig .tc := ⟨.hbm, 44, rfl⟩
abbrev main_c_5 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_c_6 : Ref sig .tc := ⟨.hbm, 53, rfl⟩
abbrev main_v33 : Ref sig .tc := ⟨.hbm, 54, rfl⟩
abbrev main_v34 : Ref sig .tc := ⟨.hbm, 55, rfl⟩
abbrev main_c_7 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_8 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_call1_cst : Ref sig .tc := ⟨.hbm, 72, rfl⟩
abbrev main_call1_v0 : Ref sig .tc := ⟨.hbm, 73, rfl⟩
abbrev main_v49 : Ref sig .tc := ⟨.hbm, 74, rfl⟩
abbrev main_cst_9 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_cst_10 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_cst_11 : Ref sig .tc := ⟨.hbm, 83, rfl⟩
abbrev main_call2_v0 : Ref sig .tc := ⟨.hbm, 84, rfl⟩
abbrev main_call2_v1 : Ref sig .tc := ⟨.hbm, 85, rfl⟩
abbrev main_v56 : Ref sig .tc := ⟨.hbm, 86, rfl⟩
abbrev main_c_12 : Ref sig .tc := ⟨.hbm, 87, rfl⟩
abbrev main_v57 : Ref sig .tc := ⟨.hbm, 88, rfl⟩
abbrev main_v58 : Ref sig .tc := ⟨.hbm, 89, rfl⟩
abbrev main_c_13 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_c_14 : Ref sig .tc := ⟨.hbm, 97, rfl⟩
abbrev main_v65 : Ref sig .tc := ⟨.hbm, 98, rfl⟩
abbrev main_v66 : Ref sig .tc := ⟨.hbm, 99, rfl⟩
abbrev main_c_15 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_c_16 : Ref sig .tc := ⟨.hbm, 108, rfl⟩
abbrev main_v74 : Ref sig .tc := ⟨.hbm, 109, rfl⟩
abbrev main_v75 : Ref sig .tc := ⟨.hbm, 110, rfl⟩
abbrev main_c_17 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_cst_18 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_cst_19 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_cst_20 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_cst_21 : Ref sig .tc := ⟨.hbm, 135, rfl⟩
abbrev main_call3_v0 : Ref sig .tc := ⟨.hbm, 136, rfl⟩
abbrev main_call3_v1 : Ref sig .tc := ⟨.hbm, 137, rfl⟩
abbrev main_v96 : Ref sig .tc := ⟨.hbm, 138, rfl⟩
abbrev main_c_22 : Ref sig .tc := ⟨.hbm, 139, rfl⟩
abbrev main_v97 : Ref sig .tc := ⟨.hbm, 140, rfl⟩
abbrev main_v98 : Ref sig .tc := ⟨.hbm, 141, rfl⟩
abbrev main_c_23 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_c_24 : Ref sig .tc := ⟨.hbm, 149, rfl⟩
abbrev main_v105 : Ref sig .tc := ⟨.hbm, 150, rfl⟩
abbrev main_v106 : Ref sig .tc := ⟨.hbm, 151, rfl⟩
abbrev main_c_25 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_c_26 : Ref sig .tc := ⟨.hbm, 160, rfl⟩
abbrev main_v114 : Ref sig .tc := ⟨.hbm, 161, rfl⟩
abbrev main_v115 : Ref sig .tc := ⟨.hbm, 162, rfl⟩
abbrev main_c_27 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩
abbrev main_cst_28 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_cst_29 : Ref sig .tc := ⟨.hbm, 179, rfl⟩
abbrev main_v130 : Ref sig .tc := ⟨.hbm, 180, rfl⟩
abbrev main_v131 : Ref sig .tc := ⟨.hbm, 181, rfl⟩
abbrev main_v132 : Ref sig .tc := ⟨.hbm, 182, rfl⟩
abbrev main_v133 : Ref sig .tc := ⟨.hbm, 183, rfl⟩
abbrev main_v134 : Ref sig .tc := ⟨.hbm, 184, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x512_S512x128_S50000x128_1_0_0_1_n_n_wf : DotDims.WF S50000x512 S512x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x128_S50000x128_1_0_0_1_n_n_wf : DotDims.WF S50000x128 S128x128 S50000x128 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x512_S512x128_S50000x128_1_0_0_1_n_n : DotDims S50000x512 S512x128 S50000x128 where
  lhsContracting := [1]
  rhsContracting := [0]
  lhsNonContracting := [0]
  rhsNonContracting := [1]
  lhsBatch := []
  rhsBatch := []
  wf := dot_S50000x512_S512x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.LibGatherVec.lean ====
/-
  A gather of single entries of a vector at a column of start indices, read at an index.

  `x[idx]` for a flat array `x : [N]` and an integer array `idx : [M]` reaches the host as a gather whose start indices are
  the column `[M, 1]`: no offset axis, the operand's one axis collapsed, slices of one entry, the index vector along the
  column's second axis. Result entry `s` is `x` at the start index `idx[s, 0]`, read as a signed integer and clamped into
  `[0, N − 1]`, as every start index of a gather is clamped.
-/
import Idealize.ShloMosaic.Lib.ValueIdx

noncomputable section

namespace Cert.GatherVec

open Idealize.ShloMosaic Idealize.ShloMosaic.ValueIdx

variable {α : Type}

/-- Those dimension numbers for an operand `[N]`, start indices `[M, 1]` and a result `[M]`. -/
abbrev vecDims (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- THE GATHER READ AT `s`: the operand at the start index `idx[s, 0]`, read signed and clamped into `[0, N − 1]`. -/
theorem gather_vec_apply {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (s : Fin M) :
    Host.gather (vecDims N M wf) x idx (ix1 s)
      = x (ix1 ⟨min (idx (ix2 s (0 : Fin 1))).toInt.toNat (N - 1), by omega⟩) := by
  unfold Host.gather
  congr 1
  funext a
  obtain rfl : a = 0 := Subsingleton.elim _ _
  refine Fin.ext ?_
  show (vecDims N M wf).start (ix1 s) idx 0 + (vecDims N M wf).batchCoord (ix1 s) 0 + (vecDims N M wf).offCoord (ix1 s) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims N M wf).startIndexMap from List.mem_singleton.mpr rfl)]
  have hsi : (vecDims N M wf).siIdx (ix1 s) ⟨List.idxOf (0 : Fin 1) (vecDims N M wf).startIndexMap,
      List.idxOf_lt_length_iff.2 (List.mem_singleton.mpr rfl)⟩ = ix2 s (0 : Fin 1) := by
    funext b; refine Fin.ext ?_
    match b with
    | ⟨0, _⟩ => rfl
    | ⟨1, _⟩ => rfl
  rw [hsi]
  rfl

end Cert.GatherVec

end
-- ==== Proof.LibGatherRows.lean ====
/-
  A gather of whole rows of a rank-2 array at a column of start indices, read at an index.

  `x[idx]` for an array `x : [N, C]` and an integer array `idx : [M]` reaches the host as a gather whose start indices are
  the column `[M, 1]`: the result's second axis is the one offset axis, the operand's first axis is collapsed and is the
  one the start index names, slices are one row `[1, C]`, the index vector lies along the column's second axis. Result
  entry `(s, q)` is `x` at row `idx[s, 0]`, read as a signed integer and clamped into `[0, N − 1]` as every start index of
  a gather is clamped, and column `q`. The dimension numbers enter through their fields, so any record with these fields
  reads this way; the gather of single entries of a vector is restated in the same form.
-/
import Idealize.ShloMosaic.Lib.ValueIdx
import proofs.«123815_j66589172957277_2_alg».proof.Proof.LibGatherVec

noncomputable section

namespace Cert.GatherRows

open Idealize.ShloMosaic Idealize.ShloMosaic.ValueIdx

variable {α : Type}

/-- Two records of gather dimension numbers with the same fields are the same record. -/
theorem gatherDims_eq {s si t : Shape} (d d' : GatherDims s si t) (h1 : d.offsetDims = d'.offsetDims)
    (h2 : d.collapsedSliceDims = d'.collapsedSliceDims) (h3 : d.operandBatchingDims = d'.operandBatchingDims)
    (h4 : d.startIndicesBatchingDims = d'.startIndicesBatchingDims) (h5 : d.startIndexMap = d'.startIndexMap)
    (h6 : d.indexVectorDim = d'.indexVectorDim) (h7 : d.sliceSizes = d'.sliceSizes) : d = d' := by
  obtain ⟨od, cd, ob, sb, sm, iv, ss, wf⟩ := d
  obtain ⟨od', cd', ob', sb', sm', iv', ss', wf'⟩ := d'
  dsimp only at h1 h2 h3 h4 h5 h6 h7
  subst h1 h2 h3 h4 h5 h6 h7
  rfl

/-- THE GATHER OF ROWS READ AT `(s, q)`: the operand at row `idx[s, 0]`, read signed and clamped into `[0, N − 1]`, and
    column `q`. -/
theorem gather_rows_apply {N C M w : Nat} (hN : 0 < N) (d : GatherDims ⟨2, ![N, C]⟩ ⟨2, ![M, 1]⟩ ⟨2, ![M, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C]) (x : (⟨2, ![N, C]⟩ : Shape).Idx → α) (idx : IVec ⟨2, ![M, 1]⟩ w) (s : Fin M) (q : Fin C) :
    Host.gather d x idx (ix2 s q)
      = x (ix2 ⟨min (idx (ix2 s (0 : Fin 1))).toInt.toNat (N - 1), by omega⟩ q) := by
  obtain ⟨od, cd, ob, sb, sm, iv, ss, wf⟩ := d
  dsimp only at h1 h2 h3 h4 h5 h6 h7
  subst h1 h2 h3 h4 h5 h6 h7
  generalize hD : (⟨[1], [0], [], [], [0], 1, ![1, C], wf⟩ : GatherDims ⟨2, ![N, C]⟩ ⟨2, ![M, 1]⟩ ⟨2, ![M, C]⟩) = D
  have hsm : D.startIndexMap = [0] := by subst hD; rfl
  have hob : D.operandBatchingDims = [] := by subst hD; rfl
  have hcd : D.collapsedSliceDims = [0] := by subst hD; rfl
  unfold Host.gather
  congr 1
  funext a
  refine Fin.ext ?_
  match a with
  | ⟨0, _⟩ =>
    show D.start (ix2 s q) idx 0 + D.batchCoord (ix2 s q) 0 + D.offCoord (ix2 s q) 0 = _
    rw [GatherDims.batchCoord_eq_zero _ _ _ (by rw [hob]; exact List.not_mem_nil),
      GatherDims.offCoord_eq_zero _ _ _ (fun h => ((GatherDims.mem_sKept _ _).mp h).1 (by rw [hcd]; exact List.mem_singleton.mpr rfl))]
    simp only [Nat.add_zero]
    subst hD
    unfold GatherDims.start
    rw [dif_pos (List.mem_singleton.mpr rfl)]
    have hsi : (⟨[1], [0], [], [], [0], 1, ![1, C], wf⟩ : GatherDims ⟨2, ![N, C]⟩ ⟨2, ![M, 1]⟩ ⟨2, ![M, C]⟩).siIdx (ix2 s q)
        ⟨List.idxOf (0 : Fin 2) [0], List.idxOf_lt_length_iff.2 (List.mem_singleton.mpr rfl)⟩ = ix2 s (0 : Fin 1) := by
      funext b; refine Fin.ext ?_
      match b with
      | ⟨0, _⟩ => rfl
      | ⟨1, _⟩ => rfl
    rw [hsi]
    rfl
  | ⟨1, _⟩ =>
    show D.start (ix2 s q) idx 1 + D.batchCoord (ix2 s q) 1 + D.offCoord (ix2 s q) 1 = q.val
    rw [GatherDims.batchCoord_eq_zero _ _ _ (by rw [hob]; exact List.not_mem_nil)]
    have hst : D.start (ix2 s q) idx 1 = 0 := by
      unfold GatherDims.start
      rw [dif_neg (by rw [hsm]; exact fun hm => Nat.one_ne_zero (congrArg Fin.val (List.mem_singleton.mp hm)))]
    rw [hst]
    subst hD
    unfold GatherDims.offCoord
    rw [dif_pos ((GatherDims.mem_sKept _ _).mpr
      ⟨fun hm => Nat.one_ne_zero (congrArg Fin.val (List.mem_singleton.mp hm)), List.not_mem_nil⟩)]
    simp only [Nat.zero_add, Nat.add_zero]
    rfl

/-- THE GATHER OF ENTRIES OF A VECTOR READ AT `s`, the dimension numbers given by their fields: the operand at the start
    index `idx[s, 0]`, read signed and clamped into `[0, N − 1]`. -/
theorem gather_vec_apply' {N M w : Nat} (hN : 0 < N) (d : GatherDims ⟨1, ![N]⟩ ⟨2, ![M, 1]⟩ ⟨1, ![M]⟩)
    (h1 : d.offsetDims = []) (h2 : d.collapsedSliceDims = [0]) (h3 : d.operandBatchingDims = [])
    (h4 : d.startIndicesBatchingDims = []) (h5 : d.startIndexMap = [0]) (h6 : d.indexVectorDim = 1)
    (h7 : d.sliceSizes = ![1]) (x : (⟨1, ![N]⟩ : Shape).Idx → α) (idx : IVec ⟨2, ![M, 1]⟩ w) (s : Fin M) :
    Host.gather d x idx (ix1 s) = x (ix1 ⟨min (idx (ix2 s (0 : Fin 1))).toInt.toNat (N - 1), by omega⟩) := by
  obtain ⟨od, cd, ob, sb, sm, iv, ss, wf⟩ := d
  dsimp only at h1 h2 h3 h4 h5 h6 h7
  subst h1 h2 h3 h4 h5 h6 h7
  exact Cert.GatherVec.gather_vec_apply hN wf x idx s

end Cert.GatherRows

end
-- ==== Proof.LibSegmentSum.lean ====
/-
  A segment sum over edges, read at one entry: the accumulating scatter as a plain sum over edges.

  A segment sum scatters one update per edge into an operand and adds. Two shapes occur. ROWS: updates `[M, C]` go into
  an operand `[N, C]` at a column `[M, 1]` of scatter indices; the updates' second axis is the one window axis, the
  operand's first axis is inserted and is the one the scatter index names, and the index vector lies along the column's
  second axis. VECTOR: updates `[M]` go into an operand `[N]` at the same column of scatter indices; there is no window
  axis, the operand's only axis is inserted and named by the scatter index.

  An update lands at start plus window coordinate on every operand axis. On the named axis the start is the edge's scatter
  index read as a SIGNED integer, not clamped, and the window coordinate is zero; on the rows' column axis the start is
  zero and the window coordinate is the update's column. An update whose landing place is outside the operand is dropped.
  Hence the update of edge `e` (in column `q`) lands on row `p` (column `q'`) exactly when the scatter index of `e`, read
  signed, equals `p` (and `q = q'`): a negative or too large index names no row and contributes nothing.

  At the exact-arithmetic instance the accumulating scatter at an entry is that entry plus the sum of all updates landing
  on it. Reindexing the landing updates by their edge (the map `e ↦ (e, q)`, resp. `e ↦ (e)`, is a bijection from the
  edges whose index is `p` onto the updates landing on the entry) gives the scatter at `(p, q)` as
  `x[p, q] + ∑ over edges e with idx[e, 0] = p of upd[e, q]`, and at `p` as `x[p] + ∑ over the same edges of upd[e]`.

  The dimension numbers enter through their fields, so the statements apply to any record with those fields.
-/
import Idealize.ShloMosaic.PureOps
import Idealize.ShloMosaic.Lib.ValueIdx
import Idealize.ShloMosaic.PureOps.Ideal

noncomputable section

namespace Cert.SegmentSum

open Idealize.ShloMosaic Idealize.ShloMosaic.ValueIdx

/-! ## Rows: updates `[M, C]` into an operand `[N, C]` -/

/-- Rows: the window start on the row axis is the scatter index of the edge, read signed. -/
theorem rows_start_zero {N C M w : Nat} (d : ScatterDims ⟨2, ![N, C]⟩ ⟨2, ![M, 1]⟩ ⟨2, ![M, C]⟩)
    (h1 : d.updateWindowDims = [1]) (h2 : d.insertedWindowDims = [0]) (h3 : d.scatterDimsToOperandDims = [0])
    (h4 : d.indexVectorDim = 1) (idx : IVec ⟨2, ![M, 1]⟩ w) (e : Fin M) (q : Fin C) :
    d.start (ix2 e q) idx 0 = (idx (ix2 e (0 : Fin 1))).toInt := by
  obtain ⟨uw, iw, sd, iv, wf⟩ := d
  dsimp only at h1 h2 h3 h4
  subst h1 h2 h3 h4
  unfold ScatterDims.start
  rw [dif_pos (List.mem_singleton.mpr rfl)]
  have hsi : (⟨[1], [0], [0], 1, wf⟩ : ScatterDims ⟨2, ![N, C]⟩ ⟨2, ![M, 1]⟩ ⟨2, ![M, C]⟩).siIdx (ix2 e q)
      ⟨List.idxOf (0 : Fin 2) [0], List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- Rows: the column axis is not named by the scatter index, so its window start is zero. -/
theorem rows_start_one {N C M w : Nat} (d : ScatterDims ⟨2, ![N, C]⟩ ⟨2, ![M, 1]⟩ ⟨2, ![M, C]⟩)
    (h3 : d.scatterDimsToOperandDims = [0]) (idx : IVec ⟨2, ![M, 1]⟩ w) (j : (⟨2, ![M, C]⟩ : Shape).Idx) :
    d.start j idx 1 = 0 := by
  unfold ScatterDims.start
  rw [dif_neg (by rw [h3]; simp)]

/-- Rows: the row axis is inserted, so its window coordinate is zero. -/
theorem rows_window_zero {N C M : Nat} (d : ScatterDims ⟨2, ![N, C]⟩ ⟨2, ![M, 1]⟩ ⟨2, ![M, C]⟩)
    (h2 : d.insertedWindowDims = [0]) (j : (⟨2, ![M, C]⟩ : Shape).Idx) : d.window j 0 = 0 := by
  unfold ScatterDims.window
  rw [dif_neg (by simp [ScatterDims.sKept, Shape.kept, h2])]

/-- Rows: the window coordinate on the column axis is the update's column. -/
theorem rows_window_one {N C M : Nat} (d : ScatterDims ⟨2, ![N, C]⟩ ⟨2, ![M, 1]⟩ ⟨2, ![M, C]⟩)
    (h1 : d.updateWindowDims = [1]) (h2 : d.insertedWindowDims = [0]) (e : Fin M) (q : Fin C) :
    d.window (ix2 e q) 1 = q.val := by
  obtain ⟨uw, iw, sd, iv, wf⟩ := d
  dsimp only at h1 h2
  subst h1 h2
  unfold ScatterDims.window
  rw [dif_pos (by simp [ScatterDims.sKept, Shape.kept])]
  rfl

/-- ROWS, WHERE AN UPDATE LANDS: the update at `(e, q)` lands on the entry `(p, q')` exactly when the scatter index of
    edge `e`, read signed, is the row `p`, and the columns agree. -/
theorem rows_lands_iff {N C M w : Nat} (d : ScatterDims ⟨2, ![N, C]⟩ ⟨2, ![M, 1]⟩ ⟨2, ![M, C]⟩)
    (h1 : d.updateWindowDims = [1]) (h2 : d.insertedWindowDims = [0]) (h3 : d.scatterDimsToOperandDims = [0])
    (h4 : d.indexVectorDim = 1) (idx : IVec ⟨2, ![M, 1]⟩ w) (e : Fin M) (q : Fin C) (p : Fin N) (q' : Fin C) :
    d.resultIdx? (ix2 e q) idx = some (ix2 p q') ↔ (idx (ix2 e (0 : Fin 1))).toInt = (p.val : Int) ∧ q = q' := by
  have hs0 := rows_start_zero d h1 h2 h3 h4 idx e q
  have hs1 := rows_start_one d h3 idx (ix2 e q)
  have hw0 := rows_window_zero d h2 (ix2 e q)
  have hw1 := rows_window_one d h1 h2 e q
  unfold ScatterDims.resultIdx?
  constructor
  · intro h
    split at h
    · rename_i hb
      have hi := Option.some.inj h
      have b0 := (hb 0).1
      have e0 : (d.start (ix2 e q) idx 0 + (d.window (ix2 e q) 0 : Int)).toNat = p.val :=
        congrArg (fun f : (⟨2, ![N, C]⟩ : Shape).Idx => (f 0).val) hi
      have e1 : (d.start (ix2 e q) idx 1 + (d.window (ix2 e q) 1 : Int)).toNat = q'.val :=
        congrArg (fun f : (⟨2, ![N, C]⟩ : Shape).Idx => (f 1).val) hi
      rw [hs0, hw0] at e0 b0
      rw [hs1, hw1] at e1
      exact ⟨by omega, Fin.ext (by omega)⟩
    · exact absurd h (by simp)
  · rintro ⟨ht, rfl⟩
    have hb : ∀ a, 0 ≤ d.start (ix2 e q) idx a + d.window (ix2 e q) a ∧
        d.start (ix2 e q) idx a + d.window (ix2 e q) a < (⟨2, ![N, C]⟩ : Shape).size a := by
      intro a
      match a with
      | ⟨0, _⟩ =>
        show 0 ≤ d.start (ix2 e q) idx 0 + (d.window (ix2 e q) 0 : Int) ∧
          d.start (ix2 e q) idx 0 + (d.window (ix2 e q) 0 : Int) < (N : Int)
        rw [hs0, hw0, ht]; have := p.isLt; omega
      | ⟨1, _⟩ =>
        show 0 ≤ d.start (ix2 e q) idx 1 + (d.window (ix2 e q) 1 : Int) ∧
          d.start (ix2 e q) idx 1 + (d.window (ix2 e q) 1 : Int) < (C : Int)
        rw [hs1, hw1]; have := q.isLt; omega
    rw [dif_pos hb]
    congr 1
    funext a; refine Fin.ext ?_
    match a with
    | ⟨0, _⟩ =>
      show (d.start (ix2 e q) idx 0 + (d.window (ix2 e q) 0 : Int)).toNat = p.val
      rw [hs0, hw0, ht]; omega
    | ⟨1, _⟩ =>
      show (d.start (ix2 e q) idx 1 + (d.window (ix2 e q) 1 : Int)).toNat = q.val
      rw [hs1, hw1]; omega

/-- ROWS, THE SEGMENT SUM AT AN ENTRY: the accumulating scatter at `(p, q)` is the operand's entry plus the sum, over the
    edges whose scatter index read signed is the row `p`, of the updates' entries in column `q`. -/
theorem segSumRows_apply {N C M w : Nat} (d : ScatterDims ⟨2, ![N, C]⟩ ⟨2, ![M, 1]⟩ ⟨2, ![M, C]⟩)
    (h1 : d.updateWindowDims = [1]) (h2 : d.insertedWindowDims = [0]) (h3 : d.scatterDimsToOperandDims = [0])
    (h4 : d.indexVectorDim = 1) (idx : IVec ⟨2, ![M, 1]⟩ w) (x : FVec Ideal ⟨2, ![N, C]⟩ .f32)
    (upd : FVec Ideal ⟨2, ![M, C]⟩ .f32) (p : Fin N) (q : Fin C) :
    Host.scatterAdd (F := Ideal) d x idx upd (ix2 p q) = x (ix2 p q) +
      ∑ e ∈ Finset.univ.filter (fun e : Fin M => (idx (ix2 e (0 : Fin 1))).toInt = (p.val : Int)), upd (ix2 e q) := by
  show x (ix2 p q) + ∑ j ∈ Finset.univ.filter (fun j => d.resultIdx? j idx = some (ix2 p q)), upd j = _
  congr 1
  symm
  refine Finset.sum_nbij' (fun e : Fin M => ix2 e q) (fun j : (⟨2, ![M, C]⟩ : Shape).Idx => (j 0 : Fin M)) ?_ ?_ ?_ ?_ ?_
  · intro e he
    exact Finset.mem_filter.2 ⟨Finset.mem_univ _,
      (rows_lands_iff d h1 h2 h3 h4 idx e q p q).2 ⟨(Finset.mem_filter.1 he).2, rfl⟩⟩
  · intro j hj
    have hj2 := (Finset.mem_filter.1 hj).2
    rw [eq_ix2 j] at hj2
    exact Finset.mem_filter.2 ⟨Finset.mem_univ _, ((rows_lands_iff d h1 h2 h3 h4 idx (j 0) (j 1) p q).1 hj2).1⟩
  · intro e _
    rfl
  · intro j hj
    have hj2 := (Finset.mem_filter.1 hj).2
    rw [eq_ix2 j] at hj2
    have hq := ((rows_lands_iff d h1 h2 h3 h4 idx (j 0) (j 1) p q).1 hj2).2
    show ix2 (j 0) q = j
    rw [← hq]
    exact (eq_ix2 j).symm
  · intro e _
    rfl

/-! ## Vector: updates `[M]` into an operand `[N]` -/

/-- Vector: the window start on the only axis is the scatter index of the edge, read signed. -/
theorem vec_start_zero {N M w : Nat} (d : ScatterDims ⟨1, ![N]⟩ ⟨2, ![M, 1]⟩ ⟨1, ![M]⟩)
    (h1 : d.updateWindowDims = []) (h2 : d.insertedWindowDims = [0]) (h3 : d.scatterDimsToOperandDims = [0])
    (h4 : d.indexVectorDim = 1) (idx : IVec ⟨2, ![M, 1]⟩ w) (e : Fin M) :
    d.start (ix1 e) idx 0 = (idx (ix2 e (0 : Fin 1))).toInt := by
  obtain ⟨uw, iw, sd, iv, wf⟩ := d
  dsimp only at h1 h2 h3 h4
  subst h1 h2 h3 h4
  unfold ScatterDims.start
  rw [dif_pos (List.mem_singleton.mpr rfl)]
  have hsi : (⟨[], [0], [0], 1, wf⟩ : ScatterDims ⟨1, ![N]⟩ ⟨2, ![M, 1]⟩ ⟨1, ![M]⟩).siIdx (ix1 e)
      ⟨List.idxOf (0 : Fin 1) [0], List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- Vector: the only axis is inserted, so its window coordinate is zero. -/
theorem vec_window_zero {N M : Nat} (d : ScatterDims ⟨1, ![N]⟩ ⟨2, ![M, 1]⟩ ⟨1, ![M]⟩)
    (h2 : d.insertedWindowDims = [0]) (j : (⟨1, ![M]⟩ : Shape).Idx) : d.window j 0 = 0 := by
  unfold ScatterDims.window
  rw [dif_neg (by simp [ScatterDims.sKept, Shape.kept, h2])]

/-- VECTOR, WHERE AN UPDATE LANDS: the update of edge `e` lands on the entry `p` exactly when the scatter index of `e`,
    read signed, is `p`. -/
theorem vec_lands_iff {N M w : Nat} (d : ScatterDims ⟨1, ![N]⟩ ⟨2, ![M, 1]⟩ ⟨1, ![M]⟩)
    (h1 : d.updateWindowDims = []) (h2 : d.insertedWindowDims = [0]) (h3 : d.scatterDimsToOperandDims = [0])
    (h4 : d.indexVectorDim = 1) (idx : IVec ⟨2, ![M, 1]⟩ w) (e : Fin M) (p : Fin N) :
    d.resultIdx? (ix1 e) idx = some (ix1 p) ↔ (idx (ix2 e (0 : Fin 1))).toInt = (p.val : Int) := by
  have hs0 := vec_start_zero d h1 h2 h3 h4 idx e
  have hw0 := vec_window_zero d h2 (ix1 e)
  unfold ScatterDims.resultIdx?
  constructor
  · intro h
    split at h
    · rename_i hb
      have hi := Option.some.inj h
      have b0 := (hb 0).1
      have e0 : (d.start (ix1 e) idx 0 + (d.window (ix1 e) 0 : Int)).toNat = p.val :=
        congrArg (fun f : (⟨1, ![N]⟩ : Shape).Idx => (f 0).val) hi
      rw [hs0, hw0] at e0 b0
      omega
    · exact absurd h (by simp)
  · intro ht
    have hb : ∀ a, 0 ≤ d.start (ix1 e) idx a + d.window (ix1 e) a ∧
        d.start (ix1 e) idx a + d.window (ix1 e) a < (⟨1, ![N]⟩ : Shape).size a := by
      intro a
      match a with
      | ⟨0, _⟩ =>
        show 0 ≤ d.start (ix1 e) idx 0 + (d.window (ix1 e) 0 : Int) ∧
          d.start (ix1 e) idx 0 + (d.window (ix1 e) 0 : Int) < (N : Int)
        rw [hs0, hw0, ht]; have := p.isLt; omega
    rw [dif_pos hb]
    congr 1
    funext a; refine Fin.ext ?_
    match a with
    | ⟨0, _⟩ =>
      show (d.start (ix1 e) idx 0 + (d.window (ix1 e) 0 : Int)).toNat = p.val
      rw [hs0, hw0, ht]; omega

/-- VECTOR, THE SEGMENT SUM AT AN ENTRY: the accumulating scatter at `p` is the operand's entry plus the sum, over the
    edges whose scatter index read signed is `p`, of the updates' entries. -/
theorem segSumVec_apply {N M w : Nat} (d : ScatterDims ⟨1, ![N]⟩ ⟨2, ![M, 1]⟩ ⟨1, ![M]⟩)
    (h1 : d.updateWindowDims = []) (h2 : d.insertedWindowDims = [0]) (h3 : d.scatterDimsToOperandDims = [0])
    (h4 : d.indexVectorDim = 1) (idx : IVec ⟨2, ![M, 1]⟩ w) (x : FVec Ideal ⟨1, ![N]⟩ .f32)
    (upd : FVec Ideal ⟨1, ![M]⟩ .f32) (p : Fin N) :
    Host.scatterAdd (F := Ideal) d x idx upd (ix1 p) = x (ix1 p) +
      ∑ e ∈ Finset.univ.filter (fun e : Fin M => (idx (ix2 e (0 : Fin 1))).toInt = (p.val : Int)), upd (ix1 e) := by
  show x (ix1 p) + ∑ j ∈ Finset.univ.filter (fun j => d.resultIdx? j idx = some (ix1 p)), upd j = _
  congr 1
  symm
  refine Finset.sum_nbij' (fun e : Fin M => ix1 e) (fun j : (⟨1, ![M]⟩ : Shape).Idx => (j 0 : Fin M)) ?_ ?_ ?_ ?_ ?_
  · intro e he
    exact Finset.mem_filter.2 ⟨Finset.mem_univ _,
      (vec_lands_iff d h1 h2 h3 h4 idx e p).2 (Finset.mem_filter.1 he).2⟩
  · intro j hj
    have hj2 := (Finset.mem_filter.1 hj).2
    rw [eq_ix1 j] at hj2
    exact Finset.mem_filter.2 ⟨Finset.mem_univ _, (vec_lands_iff d h1 h2 h3 h4 idx (j 0) p).1 hj2⟩
  · intro e _
    rfl
  · intro j _
    exact (eq_ix1 j).symm
  · intro e _
    rfl

end Cert.SegmentSum

end
-- ==== Proof.LibRowBlocks.lean ====
/-
  Rows of blocks: layout operations of a block of tokens read at an index, and a transposed contraction.

  A kernel that treats a block of `a` groups of `b` tokens as `n = a · b` rows views an `[a, b, c]` array as
  `[n, c]` and back: row `q = r · b + l` of the merged view is token `l` of group `r`.  A per-row statistic
  lives in a column `[n, 1]`: a vector `[n]` cast to a column, a column broadcast along the row.  A `[1, b, c]`
  table is broadcast over the `a` groups.  A one-axis sum of an `[n, c]` array reads, at row `q`, the sum of
  that row.  A contraction `l · rᵀ` — the second axes of both operands contracted, no batch axis — reads at
  `(q, d)` the sum over `p` of `l (q, p) · r (d, p)`; the same with a rank-4 left operand whose last axis is
  contracted.  All of it at any extents.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.RowBlocks

open Idealize.ShloMosaic Idealize.ShloMosaic.ValueIdx

variable {α : Type}

/-- `[a, b, c]` viewed `[n, c]`: row `q = r · b + l` is entry `(r, l)`. -/
theorem shapeCast_merge_apply {a b c n : ℕ} (x : (⟨3, ![a, b, c]⟩ : Shape).Idx → α)
    (h : (⟨3, ![a, b, c]⟩ : Shape).ShapeCasts ⟨2, ![n, c]⟩) (r : Fin a) (l : Fin b) (d : Fin c) (q : Fin n)
    (hq : q.val = r.val * b + l.val) : shapeCast ⟨2, ![n, c]⟩ x h (ix2 q d) = x (ix3 r l d) :=
  shapeCast_apply x h _ _ (by
    rw [Shape.rowMajor_val_three, Shape.rowMajor_val_two]
    show (r.val * b + l.val) * c + d.val = q.val * c + d.val
    rw [hq])

/-- `[n, c]` viewed `[a, b, c]`: entry `(r, l)` is row `q = r · b + l`. -/
theorem shapeCast_split_apply {a b c n : ℕ} (x : (⟨2, ![n, c]⟩ : Shape).Idx → α)
    (h : (⟨2, ![n, c]⟩ : Shape).ShapeCasts ⟨3, ![a, b, c]⟩) (r : Fin a) (l : Fin b) (d : Fin c) (q : Fin n)
    (hq : q.val = r.val * b + l.val) : shapeCast ⟨3, ![a, b, c]⟩ x h (ix3 r l d) = x (ix2 q d) :=
  shapeCast_apply x h _ _ (by
    rw [Shape.rowMajor_val_three, Shape.rowMajor_val_two]
    show q.val * c + d.val = (r.val * b + l.val) * c + d.val
    rw [hq])

/-- A vector `[n]` cast to a column `[n, 1]` reads, at `(q, u)`, the vector at `q`. -/
theorem shapeCast_col_apply {n : ℕ} (x : (⟨1, ![n]⟩ : Shape).Idx → α)
    (h : (⟨1, ![n]⟩ : Shape).ShapeCasts ⟨2, ![n, 1]⟩) (q : Fin n) (u : Fin 1) :
    shapeCast ⟨2, ![n, 1]⟩ x h (ix2 q u) = x (ix1 q) :=
  shapeCast_apply x h _ _ (by
    have hu : u.val = 0 := by omega
    rw [Shape.rowMajor_val_two, Shape.rowMajor_val_one]
    show q.val = q.val * 1 + u.val
    rw [hu, Nat.mul_one, Nat.add_zero])

/-- A column `[n, 1]` broadcast to `[n, c]` reads, at `(q, d)`, the column at row `q`. -/
theorem broadcastTo_col_apply {n c : ℕ} (x : (⟨2, ![n, 1]⟩ : Shape).Idx → α)
    (h : (⟨2, ![n, 1]⟩ : Shape).Broadcasts ⟨2, ![n, c]⟩) (q : Fin n) (d : Fin c) :
    broadcastTo ⟨2, ![n, c]⟩ x h (ix2 q d) = x (ix2 q (0 : Fin 1)) := by
  refine broadcastTo_apply x h (ix2 q d) (ix2 q (0 : Fin 1)) fun ax => ?_
  match ax with
  | ⟨0, _⟩ =>
    show q.val = if n = 1 then 0 else q.val
    split
    · have := q.isLt; omega
    · rfl
  | ⟨1, _⟩ => rfl

/-- A `[1, b, c]` table broadcast over `a` groups reads, at `(r, l, d)`, the table at `(l, d)`. -/
theorem broadcastTo_groups_apply {a b c : ℕ} (x : (⟨3, ![1, b, c]⟩ : Shape).Idx → α)
    (h : (⟨3, ![1, b, c]⟩ : Shape).Broadcasts ⟨3, ![a, b, c]⟩) (r : Fin a) (l : Fin b) (d : Fin c) :
    broadcastTo ⟨3, ![a, b, c]⟩ x h (ix3 r l d) = x (ix3 (0 : Fin 1) l d) := by
  refine broadcastTo_apply x h (ix3 r l d) (ix3 (0 : Fin 1) l d) fun ax => ?_
  match ax with
  | ⟨0, _⟩ => rfl
  | ⟨1, _⟩ =>
    show l.val = if b = 1 then 0 else l.val
    split
    · have := l.isLt; omega
    · rfl
  | ⟨2, _⟩ =>
    show d.val = if c = 1 then 0 else d.val
    split
    · have := d.isLt; omega
    · rfl

/-- The sum of an `[n, c]` array along its second axis reads, at row `q`, the sum of the row's entries. -/
theorem rowSum_apply {n c : ℕ} (src : FVec Ideal ⟨2, ![n, c]⟩ .f32)
    (h : (⟨2, ![n, c]⟩ : Shape).Reduces [1] ⟨1, ![n]⟩) (hφ : FKind.Formats .f32)
    (hacc : (0x00000000#32 : BitVec 32) = 0x00000000#32) (q : Fin n) :
    multiReduction .add [1] ⟨1, ![n]⟩ src 0x00000000#32 h hφ hacc (ix1 q) = ∑ k : Fin c, src (ix2 q k) := by
  refine (Ideal.multiReduction_add_single src 0x00000000#32 h hφ hacc (ix1 q)).trans ?_
  refine Finset.sum_congr rfl fun k _ => congrArg src (funext fun ax => Fin.ext ?_)
  match ax with
  | ⟨0, _⟩ => rfl
  | ⟨1, _⟩ => rfl

/-- A contraction sum re-indexed by the one contracted coordinate: whatever the operand indices are at the
    contraction position with coordinate `k` (`hl`, `hr`), the sum over positions is the sum over `k`. -/
theorem contr_sum {sl sr so : Shape} (D : DotDims sl sr so) (K : ℕ) (hrank : D.contr.rank = 1)
    (hs : D.contr.size ⟨0, by omega⟩ = K) (l : sl.Idx → EReal) (r : sr.Idx → EReal) (j : so.Idx)
    (li : Fin K → sl.Idx) (ri : Fin K → sr.Idx)
    (hl : ∀ k, D.lhsIdx j ((contrEquiv1 D K hrank hs).symm k) = li k)
    (hr : ∀ k, D.rhsIdx j ((contrEquiv1 D K hrank hs).symm k) = ri k) :
    ∑ k : D.contr.Idx, l (D.lhsIdx j k) * r (D.rhsIdx j k) = ∑ k : Fin K, l (li k) * r (ri k) := by
  rw [← Equiv.sum_comp (contrEquiv1 D K hrank hs).symm]
  exact Finset.sum_congr rfl fun k _ => by rw [hl k, hr k]

/-- `l · rᵀ` at rank 2: the second axes contracted, at `(q, d)` the sum over `p` of `l (q, p) · r (d, p)`. -/
theorem abT_sum {M K N : ℕ} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (l : (⟨2, ![M, K]⟩ : Shape).Idx → EReal) (r : (⟨2, ![N, K]⟩ : Shape).Idx → EReal) (q : Fin M) (d : Fin N) :
    ∑ k : D.contr.Idx, l (D.lhsIdx (ix2 q d) k) * r (D.rhsIdx (ix2 q d) k) = ∑ p : Fin K, l (ix2 q p) * r (ix2 d p) := by
  obtain ⟨lc, rc, ln, rn, lb, rb, wf⟩ := D
  dsimp only at h1 h2 h3 h4 h5 h6
  subst h1 h2 h3 h4 h5 h6
  generalize hD : (⟨[1], [1], [0], [0], [], [], wf⟩ : DotDims ⟨2, ![M, K]⟩ ⟨2, ![N, K]⟩ ⟨2, ![M, N]⟩) = D
  have hrank : D.contr.rank = 1 := by subst hD; rfl
  have hs : D.contr.size ⟨0, by omega⟩ = K := by subst hD; rfl
  have hlc : D.lhsContracting = [1] := by subst hD; rfl
  have hrc : D.rhsContracting = [1] := by subst hD; rfl
  refine contr_sum D K hrank hs l r (ix2 q d) (fun p => ix2 q p) (fun p => ix2 d p) (fun k => ?_) (fun k => ?_)
  · have hk := contrEquiv1_symm_val D K hrank hs k
    exact funext fun a => Fin.ext (by
      match a with
      | ⟨0, _⟩ =>
        subst hD
        rfl
      | ⟨1, _⟩ => exact (D.lhsIdx_val_of_single hlc _ _).trans hk)
  · have hk := contrEquiv1_symm_val D K hrank hs k
    exact funext fun a => Fin.ext (by
      match a with
      | ⟨0, _⟩ =>
        subst hD
        rfl
      | ⟨1, _⟩ => exact (D.rhsIdx_val_of_single hrc _ _).trans hk)

/-- The vector unit's `l · rᵀ` into a zero accumulator, read at `(q, d)`. -/
theorem matmul_abT_apply {M K N : ℕ} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (prec : Option ContractPrecision) (l : FVec Ideal ⟨2, ![M, K]⟩ .f32) (r : FVec Ideal ⟨2, ![N, K]⟩ .f32)
    (q : Fin M) (d : Fin N) :
    matmul (F := Ideal) D prec l r (constant ⟨2, ![M, N]⟩ .f32 0x00000000#32) (ix2 q d)
      = ∑ p : Fin K, l (ix2 q p) * r (ix2 d p) :=
  (Ideal.matmul_constant_zero_apply D prec l r (ix2 q d)).trans (abT_sum D h1 h2 h3 h4 h5 h6 l r q d)

end Cert.RowBlocks

end
-- ==== Proof.LibHostLayout.lean ====
/-
  The host's layout operations, row sums and transposed contractions, read at an index.

  A reference written with `keepdims` reductions moves between a vector `[n]`, a column `[n, 1]` and an array `[n, c]`
  by `broadcast_in_dim`: a vector broadcast to a column reads the vector at the row; a column broadcast along the rows
  reads the column at the row; a vector broadcast to one row and that row to every row reads the vector at the column;
  a scalar broadcast everywhere reads the scalar.  On the extended reals the host's sum of an `[n, c]` array along its
  second axis reads, at row `q`, the initial value plus the sum of the row; and the host's contraction of the second
  axes of both rank-2 operands (no batch axis) reads, at `(q, d)`, the sum over `p` of `l (q, p) · r (d, p)`.  All of it
  at any extents.
-/
import Idealize.ShloMosaic.PureOps.Ideal.Laws
import Idealize.ShloMosaic.Lib.ValueIdx
import Idealize.ShloMosaic.Lib.ValueLayout
import Idealize.ShloMosaic.Lib.Pipeline.Value
import proofs.«123815_j66589172957277_2_alg».proof.Proof.LibRowBlocks

noncomputable section

open scoped BigOperators

namespace Cert.HostLayout

open Idealize.ShloMosaic Idealize.ShloMosaic.ValueIdx

section Layout

variable {α : Type}

/-- A vector `[n]` broadcast to a column `[n, 1]` reads, at `(q, u)`, the vector at `q`. -/
theorem bcast_vec_col {n : ℕ} (x : (⟨1, ![n]⟩ : Shape).Idx → α)
    (h : (⟨1, ![n]⟩ : Shape).BroadcastsInDim ⟨2, ![n, 1]⟩ ![0]) (q : Fin n) (u : Fin 1) :
    broadcastInDim ⟨2, ![n, 1]⟩ ![0] h x (ix2 q u) = x (ix1 q) :=
  broadcastInDim_apply ![0] h x (ix2 q u) (ix1 q) fun a => by
    match a with
    | ⟨0, _⟩ =>
      show q.val = if n = 1 then 0 else q.val
      split
      · have := q.isLt; omega
      · rfl

/-- A scalar broadcast to `[a, b]` reads the scalar everywhere. -/
theorem bcast_scalar_mat {a b : ℕ} (x : (⟨0, ![]⟩ : Shape).Idx → α)
    (h : (⟨0, ![]⟩ : Shape).BroadcastsInDim ⟨2, ![a, b]⟩ ![]) (p : Fin a) (q : Fin b) :
    broadcastInDim ⟨2, ![a, b]⟩ ![] h x (ix2 p q) = x ix0 :=
  broadcastInDim_apply ![] h x (ix2 p q) ix0 fun a => a.elim0

/-- A column `[n, 1]` broadcast to `[n, c]` reads, at `(q, d)`, the column at row `q`. -/
theorem bcast_col_mat {n c : ℕ} (x : (⟨2, ![n, 1]⟩ : Shape).Idx → α)
    (h : (⟨2, ![n, 1]⟩ : Shape).BroadcastsInDim ⟨2, ![n, c]⟩ ![0, 1]) (q : Fin n) (d : Fin c) :
    broadcastInDim ⟨2, ![n, c]⟩ ![0, 1] h x (ix2 q d) = x (ix2 q (0 : Fin 1)) :=
  broadcastInDim_apply ![0, 1] h x (ix2 q d) (ix2 q (0 : Fin 1)) fun a => by
    match a with
    | ⟨0, _⟩ =>
      show q.val = if n = 1 then 0 else q.val
      split
      · have := q.isLt; omega
      · rfl
    | ⟨1, _⟩ => rfl

/-- A vector `[N]` broadcast to one row and that row to every row of `[M, N]` reads, at `(p, q)`, the vector at `q`. -/
theorem bcast_vec_mat {M N : ℕ} (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    broadcastInDim ⟨2, ![M, N]⟩ ![0, 1] h2 (broadcastInDim ⟨2, ![1, N]⟩ ![1] h1 b) (ix2 p q) = b (ix1 q) := by
  rw [broadcastInDim_apply ![0, 1] h2 _ (ix2 p q) (ix2 (0 : Fin 1) q) (fun a => by
        match a with
        | ⟨0, _⟩ => rfl
        | ⟨1, _⟩ =>
          show q.val = if N = 1 then 0 else q.val
          split
          · have := q.isLt; omega
          · rfl),
    broadcastInDim_apply ![1] h1 b (ix2 (0 : Fin 1) q) (ix1 q) (fun a => by
        match a with
        | ⟨0, _⟩ =>
          show q.val = if N = 1 then 0 else q.val
          split
          · have := q.isLt; omega
          · rfl)]

end Layout

/-- The host's sum of an `[n, c]` array along its second axis reads, at row `q`, the initial value plus the sum of the
    row's entries. -/
theorem hostRowSum {n c : ℕ} (x : FVec Ideal ⟨2, ![n, c]⟩ .f32) (init : FVec Ideal ⟨0, ![]⟩ .f32)
    (h' : (⟨2, ![n, c]⟩ : Shape).ReducesTo [1] ⟨1, ![n]⟩) (h : (⟨2, ![n, c]⟩ : Shape).Reduces [1] ⟨1, ![n]⟩)
    (hu : 0 < (⟨0, ![]⟩ : Shape).numel) (q : Fin n) :
    Host.reduceAdd x init h' hu (ix1 q) = init (Shape.Idx.first hu) + ∑ k : Fin c, x (ix2 q k) := by
  refine (Ideal.hostReduceAdd_single h' h x (init (Shape.Idx.first hu)) (ix1 q)).trans ?_
  refine congrArg (init (Shape.Idx.first hu) + ·) (Finset.sum_congr rfl fun k _ => congrArg x (funext fun ax => Fin.ext ?_))
  match ax with
  | ⟨0, _⟩ => rfl
  | ⟨1, _⟩ => rfl

/-- The host's `l · rᵀ` (the second axes contracted, no batch axis) reads, at `(q, d)`, the sum over `p` of
    `l (q, p) · r (d, p)`. -/
theorem hostDot_abT {M K N : ℕ} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (prec : Option ContractPrecision) (l : FVec Ideal ⟨2, ![M, K]⟩ .f32) (r : FVec Ideal ⟨2, ![N, K]⟩ .f32)
    (q : Fin M) (d : Fin N) :
    Host.dotGeneral (F := Ideal) D prec l r (ix2 q d) = ∑ p : Fin K, l (ix2 q p) * r (ix2 d p) :=
  (Ideal.dotGeneral_apply D prec .single l r (ix2 q d)).trans (Cert.RowBlocks.abT_sum D h1 h2 h3 h4 h5 h6 l r q d)

end Cert.HostLayout

end
-- ==== Proof.LibGcnFold.lean ====
/-
  Folding a symmetric degree normalisation out of a sum over edges, on the extended reals.

  A graph convolution scales the message of edge `e` by `d (src e) · d (dst e)` and sums the messages over the edges
  that arrive at a node `p`. On those edges `d (dst e)` is the one number `c = d p`, so it can be taken out of the sum:
  `∑ t e · (d e · c) = c · ∑ t e · d e`. On the extended reals a product distributes over a sum only under a
  condition; here the factor is a nonnegative finite number (a reciprocal square root of a count, or zero), and for such
  a factor it does, whatever the summands are. No finiteness of the messages is needed.
-/
import Mathlib.Data.EReal.Operations
import Idealize.ShloMosaic.PureOps.Ideal

noncomputable section

namespace Cert.GcnFold

open Idealize.ShloMosaic

variable {ι : Type}

/-- A nonnegative finite factor distributes over a finite sum of extended reals. -/
theorem mul_sum (s : Finset ι) (c : EReal) (h0 : 0 ≤ c) (ht : c ≠ ⊤) (f : ι → EReal) :
    c * ∑ e ∈ s, f e = ∑ e ∈ s, c * f e := by
  classical
  induction s using Finset.induction_on with
  | empty => simp
  | insert a s ha ih =>
    rw [Finset.sum_insert ha, Finset.sum_insert ha, EReal.left_distrib_of_nonneg_of_ne_top h0 ht, ih]

/-- THE FOLD: the factor `c` common to the edges of the sum, taken out of it. The sums start from zero, as an
    accumulating scatter into a zero array reads. -/
theorem fold_out (s : Finset ι) (c : EReal) (h0 : 0 ≤ c) (ht : c ≠ ⊤) (t d d' : ι → EReal)
    (hd : ∀ e ∈ s, d' e = c) :
    c * (0 + ∑ e ∈ s, t e * d e) = 0 + ∑ e ∈ s, t e * (d e * d' e) := by
  rw [zero_add, zero_add, mul_sum s c h0 ht]
  refine Finset.sum_congr rfl fun e he => ?_
  rw [hd e he, mul_left_comm, mul_comm c (d e)]

/-- A guarded reciprocal square root — `1/√x` where `x > 0`, zero elsewhere — is a nonnegative finite number for every
    extended real `x`: at `+∞` the reciprocal square root is `0`, and at a positive real it is a positive real. -/
theorem guarded_rsqrt (x : EReal) :
    0 ≤ Scalar.select (Ideal.cmp .ogt x 0) (Ideal.rsqrt x) (0 : EReal) ∧
      Scalar.select (Ideal.cmp .ogt x 0) (Ideal.rsqrt x) (0 : EReal) ≠ ⊤ := by
  unfold Scalar.select Ideal.cmp
  by_cases h : (0 : EReal) < x
  · have h1 : BitVec.ofBool (decide ((0 : EReal) < x)) = 1 := by rw [decide_eq_true h]; rfl
    dsimp only
    rw [if_pos h1]
    induction x using EReal.rec with
    | bot => exact absurd h (by simp)
    | top => rw [Ideal.rsqrt_top]; exact ⟨le_refl 0, EReal.zero_ne_top⟩
    | coe r =>
      have hr : 0 < r := by exact_mod_cast h
      rw [Ideal.rsqrt_coe, if_neg (not_lt.mpr hr.le), if_neg hr.ne']
      exact ⟨by exact_mod_cast (inv_nonneg.mpr (Real.sqrt_nonneg r)), EReal.coe_ne_top _⟩
  · have h1 : ¬ BitVec.ofBool (decide ((0 : EReal) < x)) = 1 := by rw [decide_eq_false h]; decide
    dsimp only
    rw [if_neg h1]
    exact ⟨le_refl 0, EReal.zero_ne_top⟩

end Cert.GcnFold

end
-- ==== Proof.LibGcnHost.lean ====
/-
  One graph-convolution layer in two host spellings, on the extended reals, read at an index.

  Nodes are numbered `0 … N-1`; an edge `e` carries a source entry, a destination entry and a weight `w e`; `d` is a
  per-node factor. The layer maps an `[N, C]` array `X` to

      out (p, q) = Σ over the edges e that arrive at p of  d (src e) · w e · d (dst e) · X (src e, q)   +   b q .

  The first spelling (`kLayer`) scales the rows of `X` by `d` before gathering them along the edges, multiplies by the
  weight, sums per destination and scales the rows of the sum by `d` once more. The second (`rLayer`) gathers the
  plain rows and multiplies each by the edge's whole coefficient `d (src e) · w e · d (dst e)` before summing. On the
  edges that arrive at `p` the factor `d (dst e)` is the one number `d p`, and a nonnegative finite factor
  distributes over a sum of extended reals whatever the summands are, so the two spellings agree wherever `d` is
  nonnegative and finite; nothing is asked of `X`, `w` or `b`.

  Integer entries are read as the host reads them: a gather clamps its (already wrapped) index into `0 … N-1`
  (`node`), a negative index counts from the end (`wrap`), and the accumulating scatter takes exactly the edges whose
  destination entry, read signed, is the row.
-/
import Idealize.ShloMosaic.PureOps.Ideal.Laws
import Idealize.ShloMosaic.Lib.ValueIdx
import proofs.«123815_j66589172957277_2_alg».proof.Proof.LibGatherRows
import proofs.«123815_j66589172957277_2_alg».proof.Proof.LibSegmentSum
import proofs.«123815_j66589172957277_2_alg».proof.Proof.LibHostLayout
import proofs.«123815_j66589172957277_2_alg».proof.Proof.LibGcnFold

open scoped BigOperators

noncomputable section

namespace Cert.GcnHost

open Idealize.ShloMosaic Idealize.ShloMosaic.ValueIdx

variable {N C M : ℕ}

/-- The node an integer entry names to a gather: read signed, clamped into `0 … N-1`. -/
def node (hN : 0 < N) (v : BitVec 32) : Fin N := ⟨min v.toInt.toNat (N - 1), by omega⟩

/-- A negative entry counts from the end: `nn` (the node count) is added to it. -/
def wrap (nn : BitVec 32) (h0 : (⟨0, ![]⟩ : Shape).BroadcastsInDim ⟨1, ![M]⟩ ![]) (r : IVec ⟨1, ![M]⟩ 32) :
    IVec ⟨1, ![M]⟩ 32 :=
  select (cmpi .slt r (broadcastInDim ⟨1, ![M]⟩ ![] h0 (constantI ⟨0, ![]⟩ 32 0#32)))
    (addi r (broadcastInDim ⟨1, ![M]⟩ ![] h0 (constantI ⟨0, ![]⟩ 32 nn))) r

/-- An entry that reads as a node number is not negative, so wrapping leaves it, and the gather's clamp finds that node. -/
theorem node_wrap (hN : 0 < N) (nn : BitVec 32) (h0 : (⟨0, ![]⟩ : Shape).BroadcastsInDim ⟨1, ![M]⟩ ![])
    (r : IVec ⟨1, ![M]⟩ 32) (e : Fin M) (p : Fin N) (h : (r (ix1 e)).toInt = (p.val : Int)) :
    node hN (wrap nn h0 r (ix1 e)) = p := by
  have hns : (r (ix1 e)).slt 0#32 = false := by
    rw [BitVec.slt, h]; simp
  have hw : wrap nn h0 r (ix1 e) = r (ix1 e) := by
    unfold wrap
    rw [select_apply]
    show Scalar.select (IntOp.cmpi .slt (r (ix1 e)) _) _ _ = _
    have : IntOp.cmpi .slt (r (ix1 e)) (broadcastInDim ⟨1, ![M]⟩ ![] h0 (constantI ⟨0, ![]⟩ 32 0#32) (ix1 e)) = 0#1 := by
      show BitVec.ofBool ((r (ix1 e)).slt 0#32) = 0#1
      rw [hns]; rfl
    rw [this, select_zero]
  rw [hw]
  apply Fin.ext
  show min (r (ix1 e)).toInt.toNat (N - 1) = p.val
  rw [h]
  have := p.isLt
  simp only [Int.toNat_natCast]
  omega

/-- A gather of rows reads row `node` of its index entry. -/
theorem gather_rows_node (hN : 0 < N) {α : Type} (gd : GatherDims ⟨2, ![N, C]⟩ ⟨2, ![M, 1]⟩ ⟨2, ![M, C]⟩)
    (g1 : gd.offsetDims = [1]) (g2 : gd.collapsedSliceDims = [0]) (g3 : gd.operandBatchingDims = [])
    (g4 : gd.startIndicesBatchingDims = []) (g5 : gd.startIndexMap = [0]) (g6 : gd.indexVectorDim = 1)
    (g7 : gd.sliceSizes = ![1, C]) (x : (⟨2, ![N, C]⟩ : Shape).Idx → α) (idx : IVec ⟨2, ![M, 1]⟩ 32) (s : Fin M) (q : Fin C) :
    Host.gather gd x idx (ix2 s q) = x (ix2 (node hN (idx (ix2 s (0 : Fin 1)))) q) :=
  GatherRows.gather_rows_apply hN gd g1 g2 g3 g4 g5 g6 g7 x idx s q

/-- A gather from a vector reads entry `node` of its index entry. -/
theorem gather_vec_node (hN : 0 < N) {α : Type} (gv : GatherDims ⟨1, ![N]⟩ ⟨2, ![M, 1]⟩ ⟨1, ![M]⟩)
    (v1 : gv.offsetDims = []) (v2 : gv.collapsedSliceDims = [0]) (v3 : gv.operandBatchingDims = [])
    (v4 : gv.startIndicesBatchingDims = []) (v5 : gv.startIndexMap = [0]) (v6 : gv.indexVectorDim = 1)
    (v7 : gv.sliceSizes = ![1]) (x : (⟨1, ![N]⟩ : Shape).Idx → α) (idx : IVec ⟨2, ![M, 1]⟩ 32) (s : Fin M) :
    Host.gather gv x idx (ix1 s) = x (ix1 (node hN (idx (ix2 s (0 : Fin 1))))) :=
  GatherRows.gather_vec_apply' hN gv v1 v2 v3 v4 v5 v6 v7 x idx s

section Layers

variable (gd : GatherDims ⟨2, ![N, C]⟩ ⟨2, ![M, 1]⟩ ⟨2, ![M, C]⟩) (sd : ScatterDims ⟨2, ![N, C]⟩ ⟨2, ![M, 1]⟩ ⟨2, ![M, C]⟩)
  (gv : GatherDims ⟨1, ![N]⟩ ⟨2, ![M, 1]⟩ ⟨1, ![M]⟩)
  (hv : (⟨1, ![N]⟩ : Shape).BroadcastsInDim ⟨2, ![N, 1]⟩ ![0])
  (hc : (⟨2, ![N, 1]⟩ : Shape).BroadcastsInDim ⟨2, ![N, C]⟩ ![0, 1])
  (hi : (⟨1, ![M]⟩ : Shape).BroadcastsInDim ⟨2, ![M, 1]⟩ ![0])
  (hwc : (⟨2, ![M, 1]⟩ : Shape).BroadcastsInDim ⟨2, ![M, C]⟩ ![0, 1])
  (hz : (⟨0, ![]⟩ : Shape).BroadcastsInDim ⟨2, ![N, C]⟩ ![])
  (hb1 : (⟨1, ![C]⟩ : Shape).BroadcastsInDim ⟨2, ![1, C]⟩ ![1])
  (hb2 : (⟨2, ![1, C]⟩ : Shape).BroadcastsInDim ⟨2, ![N, C]⟩ ![0, 1])
  (d : FVec Ideal ⟨1, ![N]⟩ .f32) (rw cw col : IVec ⟨1, ![M]⟩ 32) (w : FVec Ideal ⟨1, ![M]⟩ .f32)
  (X : FVec Ideal ⟨2, ![N, C]⟩ .f32) (b : FVec Ideal ⟨1, ![C]⟩ .f32)

/-- The first spelling: rows scaled by `d`, gathered along the edges (`rw`: the source entries, wrapped), weighted,
    summed per destination (`col`) into a zero array, rows scaled by `d` again, the bias row added. -/
def kLayer : FVec Ideal ⟨2, ![N, C]⟩ .f32 :=
  addf (mulf (broadcastInDim ⟨2, ![N, C]⟩ ![0, 1] hc (broadcastInDim ⟨2, ![N, 1]⟩ ![0] hv d))
      (Host.scatterAdd sd (broadcastInDim ⟨2, ![N, C]⟩ ![] hz (constant ⟨0, ![]⟩ .f32 0x00000000#32))
        (broadcastInDim ⟨2, ![M, 1]⟩ ![0] hi col)
        (mulf (Host.gather gd (mulf (broadcastInDim ⟨2, ![N, C]⟩ ![0, 1] hc (broadcastInDim ⟨2, ![N, 1]⟩ ![0] hv d)) X)
            (broadcastInDim ⟨2, ![M, 1]⟩ ![0] hi rw))
          (broadcastInDim ⟨2, ![M, C]⟩ ![0, 1] hwc (broadcastInDim ⟨2, ![M, 1]⟩ ![0] hi w)))))
    (broadcastInDim ⟨2, ![N, C]⟩ ![0, 1] hb2 (broadcastInDim ⟨2, ![1, C]⟩ ![1] hb1 b))

/-- The edge coefficient of the second spelling: `d` at the source, the weight, `d` at the destination (`cw`: the
    destination entries, wrapped). -/
def coef : FVec Ideal ⟨1, ![M]⟩ .f32 :=
  mulf (mulf (Host.gather gv d (broadcastInDim ⟨2, ![M, 1]⟩ ![0] hi rw)) w)
    (Host.gather gv d (broadcastInDim ⟨2, ![M, 1]⟩ ![0] hi cw))

/-- The second spelling: plain rows gathered along the edges, each times its edge's coefficient `nrm`, summed per
    destination into a zero array, the bias row added. -/
def rLayer (nrm : FVec Ideal ⟨1, ![M]⟩ .f32) : FVec Ideal ⟨2, ![N, C]⟩ .f32 :=
  addf (Host.scatterAdd sd (broadcastInDim ⟨2, ![N, C]⟩ ![] hz (constant ⟨0, ![]⟩ .f32 0x00000000#32))
      (broadcastInDim ⟨2, ![M, 1]⟩ ![0] hi col)
      (mulf (Host.gather gd X (broadcastInDim ⟨2, ![M, 1]⟩ ![0] hi rw))
        (broadcastInDim ⟨2, ![M, C]⟩ ![0, 1] hwc (broadcastInDim ⟨2, ![M, 1]⟩ ![0] hi nrm))))
    (broadcastInDim ⟨2, ![N, C]⟩ ![0, 1] hb2 (broadcastInDim ⟨2, ![1, C]⟩ ![1] hb1 b))

variable (hN : 0 < N)
  (g1 : gd.offsetDims = [1]) (g2 : gd.collapsedSliceDims = [0]) (g3 : gd.operandBatchingDims = [])
  (g4 : gd.startIndicesBatchingDims = []) (g5 : gd.startIndexMap = [0]) (g6 : gd.indexVectorDim = 1)
  (g7 : gd.sliceSizes = ![1, C])
  (s1 : sd.updateWindowDims = [1]) (s2 : sd.insertedWindowDims = [0]) (s3 : sd.scatterDimsToOperandDims = [0])
  (s4 : sd.indexVectorDim = 1)
  (v1 : gv.offsetDims = []) (v2 : gv.collapsedSliceDims = [0]) (v3 : gv.operandBatchingDims = [])
  (v4 : gv.startIndicesBatchingDims = []) (v5 : gv.startIndexMap = [0]) (v6 : gv.indexVectorDim = 1)
  (v7 : gv.sliceSizes = ![1])

/-- The edges that arrive at node `p`: the destination entry, read signed, is `p`. -/
def arriving (col : IVec ⟨1, ![M]⟩ 32) (p : Fin N) : Finset (Fin M) :=
  Finset.univ.filter fun e : Fin M => (col (ix1 e)).toInt = (p.val : Int)

include g1 g2 g3 g4 g5 g6 g7 s1 s2 s3 s4 in
/-- The first spelling at `(p, q)`. -/
theorem kLayer_apply (p : Fin N) (q : Fin C) :
    kLayer gd sd hv hc hi hwc hz hb1 hb2 d rw col w X b (ix2 p q)
      = d (ix1 p) * (0 + ∑ e ∈ arriving col p,
          (d (ix1 (node hN (rw (ix1 e)))) * X (ix2 (node hN (rw (ix1 e))) q)) * w (ix1 e)) + b (ix1 q) := by
  unfold kLayer arriving
  rw [addf_apply, mulf_apply, HostLayout.bcast_col_mat, HostLayout.bcast_vec_col, HostLayout.bcast_vec_mat,
    SegmentSum.segSumRows_apply sd s1 s2 s3 s4, HostLayout.bcast_scalar_mat, constant_apply, Ideal.ofBits_zero_f32]
  congr 3
  refine Finset.sum_congr ?_ fun e _ => ?_
  · ext e
    simp only [Finset.mem_filter, Finset.mem_univ, true_and]
    rw [HostLayout.bcast_vec_col]
  · rw [mulf_apply, gather_rows_node hN gd g1 g2 g3 g4 g5 g6 g7, mulf_apply, HostLayout.bcast_col_mat,
      HostLayout.bcast_vec_col, HostLayout.bcast_col_mat, HostLayout.bcast_vec_col, HostLayout.bcast_vec_col]

include v1 v2 v3 v4 v5 v6 v7 in
/-- The edge coefficient at edge `e`. -/
theorem coef_apply (e : Fin M) :
    coef gv hi d rw cw w (ix1 e)
      = (d (ix1 (node hN (rw (ix1 e)))) * w (ix1 e)) * d (ix1 (node hN (cw (ix1 e)))) := by
  unfold coef
  rw [mulf_apply, mulf_apply, gather_vec_node hN gv v1 v2 v3 v4 v5 v6 v7,
    gather_vec_node hN gv v1 v2 v3 v4 v5 v6 v7, HostLayout.bcast_vec_col, HostLayout.bcast_vec_col]

include g1 g2 g3 g4 g5 g6 g7 s1 s2 s3 s4 in
/-- The second spelling at `(p, q)`. -/
theorem rLayer_apply (nrm : FVec Ideal ⟨1, ![M]⟩ .f32) (p : Fin N) (q : Fin C) :
    rLayer gd sd hi hwc hz hb1 hb2 rw col X b nrm (ix2 p q)
      = (0 + ∑ e ∈ arriving col p, X (ix2 (node hN (rw (ix1 e))) q) * nrm (ix1 e)) + b (ix1 q) := by
  unfold rLayer arriving
  rw [addf_apply, HostLayout.bcast_vec_mat, SegmentSum.segSumRows_apply sd s1 s2 s3 s4, HostLayout.bcast_scalar_mat,
    constant_apply, Ideal.ofBits_zero_f32]
  congr 2
  refine Finset.sum_congr ?_ fun e _ => ?_
  · ext e
    simp only [Finset.mem_filter, Finset.mem_univ, true_and]
    rw [HostLayout.bcast_vec_col]
  · rw [mulf_apply, gather_rows_node hN gd g1 g2 g3 g4 g5 g6 g7, HostLayout.bcast_col_mat,
      HostLayout.bcast_vec_col, HostLayout.bcast_vec_col]

end Layers

/-! ## The two spellings agree -/

/-- THE BRIDGE. The first spelling at width `C'`, read at a column `emb q`, is the second spelling at width `C` read at
    column `q`, when the first's array and bias row restricted to the columns `emb ·` are the second's, the per-node
    factor is nonnegative and finite, and the wrapped destination entry of an edge that arrives at `p` names `p`:
    on those edges the destination factor is the one number `d p`, which distributes over the sum. -/
theorem layer_bridge {C' : ℕ} (hN : 0 < N)
    (gd' : GatherDims ⟨2, ![N, C']⟩ ⟨2, ![M, 1]⟩ ⟨2, ![M, C']⟩) (sd' : ScatterDims ⟨2, ![N, C']⟩ ⟨2, ![M, 1]⟩ ⟨2, ![M, C']⟩)
    (gd : GatherDims ⟨2, ![N, C]⟩ ⟨2, ![M, 1]⟩ ⟨2, ![M, C]⟩) (sd : ScatterDims ⟨2, ![N, C]⟩ ⟨2, ![M, 1]⟩ ⟨2, ![M, C]⟩)
    (gv : GatherDims ⟨1, ![N]⟩ ⟨2, ![M, 1]⟩ ⟨1, ![M]⟩)
    (hv : (⟨1, ![N]⟩ : Shape).BroadcastsInDim ⟨2, ![N, 1]⟩ ![0])
    (hc' : (⟨2, ![N, 1]⟩ : Shape).BroadcastsInDim ⟨2, ![N, C']⟩ ![0, 1])
    (hi hi' : (⟨1, ![M]⟩ : Shape).BroadcastsInDim ⟨2, ![M, 1]⟩ ![0])
    (hwc' : (⟨2, ![M, 1]⟩ : Shape).BroadcastsInDim ⟨2, ![M, C']⟩ ![0, 1])
    (hwc : (⟨2, ![M, 1]⟩ : Shape).BroadcastsInDim ⟨2, ![M, C]⟩ ![0, 1])
    (hz' : (⟨0, ![]⟩ : Shape).BroadcastsInDim ⟨2, ![N, C']⟩ ![])
    (hz : (⟨0, ![]⟩ : Shape).BroadcastsInDim ⟨2, ![N, C]⟩ ![])
    (hb1' : (⟨1, ![C']⟩ : Shape).BroadcastsInDim ⟨2, ![1, C']⟩ ![1])
    (hb2' : (⟨2, ![1, C']⟩ : Shape).BroadcastsInDim ⟨2, ![N, C']⟩ ![0, 1])
    (hb1 : (⟨1, ![C]⟩ : Shape).BroadcastsInDim ⟨2, ![1, C]⟩ ![1])
    (hb2 : (⟨2, ![1, C]⟩ : Shape).BroadcastsInDim ⟨2, ![N, C]⟩ ![0, 1])
    (g1' : gd'.offsetDims = [1]) (g2' : gd'.collapsedSliceDims = [0]) (g3' : gd'.operandBatchingDims = [])
    (g4' : gd'.startIndicesBatchingDims = []) (g5' : gd'.startIndexMap = [0]) (g6' : gd'.indexVectorDim = 1)
    (g7' : gd'.sliceSizes = ![1, C'])
    (s1' : sd'.updateWindowDims = [1]) (s2' : sd'.insertedWindowDims = [0]) (s3' : sd'.scatterDimsToOperandDims = [0])
    (s4' : sd'.indexVectorDim = 1)
    (g1 : gd.offsetDims = [1]) (g2 : gd.collapsedSliceDims = [0]) (g3 : gd.operandBatchingDims = [])
    (g4 : gd.startIndicesBatchingDims = []) (g5 : gd.startIndexMap = [0]) (g6 : gd.indexVectorDim = 1)
    (g7 : gd.sliceSizes = ![1, C])
    (s1 : sd.updateWindowDims = [1]) (s2 : sd.insertedWindowDims = [0]) (s3 : sd.scatterDimsToOperandDims = [0])
    (s4 : sd.indexVectorDim = 1)
    (v1 : gv.offsetDims = []) (v2 : gv.collapsedSliceDims = [0]) (v3 : gv.operandBatchingDims = [])
    (v4 : gv.startIndicesBatchingDims = []) (v5 : gv.startIndexMap = [0]) (v6 : gv.indexVectorDim = 1)
    (v7 : gv.sliceSizes = ![1])
    (d : FVec Ideal ⟨1, ![N]⟩ .f32) (rw cw col : IVec ⟨1, ![M]⟩ 32) (w : FVec Ideal ⟨1, ![M]⟩ .f32)
    (X' : FVec Ideal ⟨2, ![N, C']⟩ .f32) (b' : FVec Ideal ⟨1, ![C']⟩ .f32)
    (X : FVec Ideal ⟨2, ![N, C]⟩ .f32) (b : FVec Ideal ⟨1, ![C]⟩ .f32)
    (hd : ∀ i, 0 ≤ d i ∧ d i ≠ ⊤)
    (hcw : ∀ (e : Fin M) (p : Fin N), (col (ix1 e)).toInt = (p.val : Int) → node hN (cw (ix1 e)) = p)
    (emb : Fin C → Fin C') (hX : ∀ j q, X' (ix2 j (emb q)) = X (ix2 j q)) (hb : ∀ q, b' (ix1 (emb q)) = b (ix1 q))
    (p : Fin N) (q : Fin C) :
    kLayer gd' sd' hv hc' hi' hwc' hz' hb1' hb2' d rw col w X' b' (ix2 p (emb q))
      = rLayer gd sd hi hwc hz hb1 hb2 rw col X b (coef gv hi d rw cw w) (ix2 p q) := by
  rw [kLayer_apply gd' sd' hv hc' hi' hwc' hz' hb1' hb2' d rw col w X' b' hN g1' g2' g3' g4' g5' g6' g7' s1' s2' s3' s4',
    rLayer_apply gd sd hi hwc hz hb1 hb2 rw col X b hN g1 g2 g3 g4 g5 g6 g7 s1 s2 s3 s4, hb]
  congr 1
  have e1 : ∀ e ∈ arriving col p,
      (d (ix1 (node hN (rw (ix1 e)))) * X' (ix2 (node hN (rw (ix1 e))) (emb q))) * w (ix1 e)
        = X (ix2 (node hN (rw (ix1 e))) q) * (d (ix1 (node hN (rw (ix1 e)))) * w (ix1 e)) := by
    intro e _
    rw [hX, mul_comm (d _) (X _), mul_assoc]
  have e2 : ∀ e ∈ arriving col p,
      X (ix2 (node hN (rw (ix1 e))) q) * coef gv hi d rw cw w (ix1 e)
        = X (ix2 (node hN (rw (ix1 e))) q) * ((d (ix1 (node hN (rw (ix1 e)))) * w (ix1 e)) * d (ix1 (node hN (cw (ix1 e))))) := by
    intro e _
    rw [coef_apply gv hi d rw cw w hN v1 v2 v3 v4 v5 v6 v7]
  rw [Finset.sum_congr rfl e1, Finset.sum_congr rfl e2]
  exact GcnFold.fold_out (arriving col p) (d (ix1 p)) (hd _).1 (hd _).2
    (fun e => X (ix2 (node hN (rw (ix1 e))) q)) (fun e => d (ix1 (node hN (rw (ix1 e)))) * w (ix1 e))
    (fun e => d (ix1 (node hN (cw (ix1 e)))))
    (fun e he => by rw [hcw e p (Finset.mem_filter.mp he).2])

end Cert.GcnHost

end
-- ==== Proof.LibDense.lean ====
/-
  Dense layers on the extended reals, over rank-2 arrays of any extents.

  `mm A B` is the matrix product, `(A B)(p, q) = ∑ k, A(p, k) · B(k, q)`; `act A S b` is the rectified affine layer
  `max (A S + b, 0)` with the bias `b` a one-row array added to every row; `row b` is a vector laid out as that one row.
  A dot product whose dimension numbers contract the left operand's columns with the right operand's rows, with no batch
  axis, read at an output index `(p, q)` sums over the contraction index; that index set is in bijection with the
  contracted extent, so the sum is `mm` at `(p, q)` — for the vector unit's matmul into a zero accumulator and for the
  host's dot product alike. The remaining lemmas read the layout operations that carry a bias (a vector cast or broadcast
  to one row, a row broadcast to all rows, a scalar zero broadcast everywhere) at an index.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Dense

open Idealize.ShloMosaic Idealize.ShloMosaic.ValueIdx

/-- A rank-2 array of extended reals. -/
abbrev Mat (a b : ℕ) : Type := (⟨2, ![a, b]⟩ : Shape).Idx → EReal
/-- A rank-1 array of extended reals. -/
abbrev Row (a : ℕ) : Type := (⟨1, ![a]⟩ : Shape).Idx → EReal

/-- The first coordinate of a rank-2 index, typed by the extent itself. -/
abbrev c0 {a b : ℕ} (i : (⟨2, ![a, b]⟩ : Shape).Idx) : Fin a := ⟨(i 0).val, idx2_lt0 i⟩
/-- The second coordinate of a rank-2 index, typed by the extent itself. -/
abbrev c1 {a b : ℕ} (i : (⟨2, ![a, b]⟩ : Shape).Idx) : Fin b := ⟨(i 1).val, idx2_lt1 i⟩

/-- The matrix product on the extended reals. -/
def mm {M K N : ℕ} (A : Mat M K) (B : Mat K N) : Mat M N :=
  fun i => ∑ k : Fin K, A (ix2 (c0 i) k) * B (ix2 k (c1 i))

theorem mm_apply {M K N : ℕ} (A : Mat M K) (B : Mat K N) (p : Fin M) (q : Fin N) :
    mm A B (ix2 p q) = ∑ k : Fin K, A (ix2 p k) * B (ix2 k q) := rfl

/-- The rectified affine layer `max (A S + b, 0)`, the one-row bias `b` added to every row. -/
def act {M K N : ℕ} (A : Mat M K) (S : Mat K N) (b : Mat 1 N) : Mat M N :=
  fun i => max (mm A S i + b (ix2 (0 : Fin 1) (c1 i))) 0

theorem act_apply {M K N : ℕ} (A : Mat M K) (S : Mat K N) (b : Mat 1 N) (p : Fin M) (q : Fin N) :
    act A S b (ix2 p q) = max ((∑ k : Fin K, A (ix2 p k) * S (ix2 k q)) + b (ix2 (0 : Fin 1) q)) 0 := rfl

/-- A vector laid out as a one-row array. -/
def row {N : ℕ} (b : Row N) : Mat 1 N := fun i => b (ix1 (c1 i))

theorem row_apply {N : ℕ} (b : Row N) (u : Fin 1) (q : Fin N) : row b (ix2 u q) = b (ix1 q) := rfl

/-- A plain product's contraction sum at `(p, q)` is the sum over the contracted extent of `l(p, k) · r(k, q)`. -/
theorem plain_sum {M K N : ℕ} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (l : Mat M K) (r : Mat K N) (p : Fin M) (q : Fin N) :
    ∑ k : D.contr.Idx, l (D.lhsIdx (ix2 p q) k) * r (D.rhsIdx (ix2 p q) k) = ∑ k : Fin K, l (ix2 p k) * r (ix2 k q) := by
  obtain ⟨lc, rc, ln, rn, lb, rb, wf⟩ := D
  dsimp only at h1 h2 h3 h4 h5 h6
  subst h1 h2 h3 h4 h5 h6
  generalize hD : (⟨[1], [0], [0], [1], [], [], wf⟩ : DotDims ⟨2, ![M, K]⟩ ⟨2, ![K, N]⟩ ⟨2, ![M, N]⟩) = D
  have hr : D.contr.rank = 1 := by subst hD; rfl
  have hs : D.contr.size ⟨0, by omega⟩ = K := by subst hD; rfl
  rw [← Equiv.sum_comp (contrEquiv1 D K hr hs).symm]
  refine Finset.sum_congr rfl fun k _ => ?_
  have hk := contrEquiv1_symm_val D K hr hs k
  have hlc : D.lhsContracting = [1] := by subst hD; rfl
  have hrc : D.rhsContracting = [0] := by subst hD; rfl
  have el : D.lhsIdx (ix2 p q) ((contrEquiv1 D K hr hs).symm k) = ix2 p k := funext fun a => Fin.ext (by
    match a with
    | ⟨0, _⟩ =>
      subst hD
      rfl
    | ⟨1, _⟩ => exact (D.lhsIdx_val_of_single hlc _ _).trans hk)
  have er : D.rhsIdx (ix2 p q) ((contrEquiv1 D K hr hs).symm k) = ix2 k q := funext fun a => Fin.ext (by
    match a with
    | ⟨0, _⟩ => exact (D.rhsIdx_val_of_single hrc _ _).trans hk
    | ⟨1, _⟩ =>
      subst hD
      rfl)
  rw [el, er]

/-- The host's plain dot product is the matrix product. -/
theorem hostDot_eq_mm {M K N : ℕ} {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal ⟨2, ![M, K]⟩ φ₁) (r : FVec Ideal ⟨2, ![K, N]⟩ φ₂) :
    Host.dotGeneral (F := Ideal) D prec l r = mm l r := by
  funext i
  obtain ⟨p, q, rfl⟩ : ∃ (p : Fin M) (q : Fin N), i = ix2 p q := ⟨i 0, i 1, eq_ix2 i⟩
  exact (Ideal.dotGeneral_apply D prec .single l r (ix2 p q)).trans (plain_sum D h1 h2 h3 h4 h5 h6 l r p q)

/-- The vector unit's plain matmul into a zero accumulator is the matrix product. -/
theorem matmul_zero_eq_mm {M K N : ℕ} {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal ⟨2, ![M, K]⟩ φ₁) (r : FVec Ideal ⟨2, ![K, N]⟩ φ₂) :
    matmul (F := Ideal) D prec l r (constant ⟨2, ![M, N]⟩ .f32 0x00000000#32) = mm l r := by
  funext i
  obtain ⟨p, q, rfl⟩ : ∃ (p : Fin M) (q : Fin N), i = ix2 p q := ⟨i 0, i 1, eq_ix2 i⟩
  exact (Ideal.matmul_constant_zero_apply D prec l r (ix2 p q)).trans (plain_sum D h1 h2 h3 h4 h5 h6 l r p q)

/-- A one-row bias added to every row, then rectified. -/
def reluBias {M N : ℕ} (X : Mat M N) (b : Mat 1 N) : Mat M N := fun i => max (X i + b (ix2 (0 : Fin 1) (c1 i))) 0

theorem act_eq {M K N : ℕ} (A : Mat M K) (S : Mat K N) (b : Mat 1 N) : act A S b = reluBias (mm A S) b := rfl

/-- The vector unit's form: the row broadcast to every row, added, and the maximum with a zero splat. -/
theorem vecReluBias {M N : ℕ} (X : FVec Ideal ⟨2, ![M, N]⟩ .f32) (b : FVec Ideal ⟨2, ![1, N]⟩ .f32)
    (h : (⟨2, ![1, N]⟩ : Shape).Broadcasts ⟨2, ![M, N]⟩) :
    maximumf (addf X (broadcastTo ⟨2, ![M, N]⟩ b h)) (broadcast ⟨2, ![M, N]⟩ (Scalar.ofBits (F := Ideal) .f32 0x00000000#32))
      = reluBias X b := by
  funext i
  obtain ⟨p, q, rfl⟩ : ∃ (p : Fin M) (q : Fin N), i = ix2 p q := ⟨i 0, i 1, eq_ix2 i⟩
  show max (X (ix2 p q) + broadcastTo ⟨2, ![M, N]⟩ b h (ix2 p q)) (Ideal.ofBits .f32 0x00000000#32) = _
  rw [broadcastTo_1b_ab_apply, Ideal.ofBits_zero_f32]
  rfl

/-- The host's form: the vector broadcast to one row, that row to every row, added, and the maximum with a broadcast
    scalar zero. -/
theorem hostReluBias {M N : ℕ} (X : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) :
    maximumf (addf X (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32))
      = reluBias X (row b) := by
  funext i
  obtain ⟨p, q, rfl⟩ : ∃ (p : Fin M) (q : Fin N), i = ix2 p q := ⟨i 0, i 1, eq_ix2 i⟩
  show max (X (ix2 p q) + broadcastInDim ⟨2, ![M, N]⟩ ![0, 1] h2 (broadcastInDim ⟨2, ![1, N]⟩ ![1] h1 b) (ix2 p q))
      (broadcastInDim ⟨2, ![M, N]⟩ ![] h0 (constant (F := Ideal) ⟨0, ![]⟩ .f32 0x00000000#32) (ix2 p q)) = _
  rw [broadcastInDim_apply ![0, 1] h2 _ (ix2 p q) (ix2 (0 : Fin 1) q) (fun a => by
        match a with
        | ⟨0, _⟩ => rfl
        | ⟨1, _⟩ =>
          show q.val = if N = 1 then 0 else q.val
          split
          · have := q.isLt; omega
          · rfl),
    broadcastInDim_apply ![1] h1 b (ix2 (0 : Fin 1) q) (ix1 q) (fun a => by
        match a with
        | ⟨0, _⟩ =>
          show q.val = if N = 1 then 0 else q.val
          split
          · have := q.isLt; omega
          · rfl),
    broadcastInDim_apply ![] h0 _ (ix2 p q) ix0 (fun a => a.elim0)]
  show max (X (ix2 p q) + b (ix1 q)) (Ideal.ofBits .f32 0x00000000#32) = _
  rw [Ideal.ofBits_zero_f32]
  rfl

/-- A vector cast to one row is that row. -/
theorem shapeCast_row {N : ℕ} (b : Row N) (h : (⟨1, ![N]⟩ : Shape).ShapeCasts ⟨2, ![1, N]⟩) :
    shapeCast ⟨2, ![1, N]⟩ b h = row b := by
  funext i
  obtain ⟨u, q, rfl⟩ : ∃ (u : Fin 1) (q : Fin N), i = ix2 u q := ⟨i 0, i 1, eq_ix2 i⟩
  exact shapeCast_a_1a_apply b h u q

/-- Rows of the layer's output depend on the same rows of the left operand only. -/
theorem mm_act_rows {M M' K N P : ℕ} (A : Mat M K) (A' : Mat M' K) (S : Mat K N) (b : Mat 1 N) (W : Mat N P)
    (p : Fin M) (p' : Fin M') (hA : ∀ k, A' (ix2 p' k) = A (ix2 p k)) (q : Fin P) :
    mm (act A' S b) W (ix2 p' q) = mm (act A S b) W (ix2 p q) := by
  simp only [mm_apply, act_apply, hA]

theorem act_rows {M M' K N : ℕ} (A : Mat M K) (A' : Mat M' K) (S : Mat K N) (b : Mat 1 N)
    (p : Fin M) (p' : Fin M') (hA : ∀ k, A' (ix2 p' k) = A (ix2 p k)) (q : Fin N) :
    act A' S b (ix2 p' q) = act A S b (ix2 p q) := by
  simp only [act_apply, hA]

theorem mm_rows {M M' K N : ℕ} (A : Mat M K) (A' : Mat M' K) (B : Mat K N)
    (p : Fin M) (p' : Fin M') (hA : ∀ k, A' (ix2 p' k) = A (ix2 p k)) (q : Fin N) :
    mm A' B (ix2 p' q) = mm A B (ix2 p q) := by
  simp only [mm_apply, hA]

end Cert.Dense

end
-- ==== Proof.KSpec.lean ====
/-
  The kernel program's result as ONE whole-array function of its ten argument arrays.

  The program computes, around its two matrix-product regions: the edge lists with a self loop appended for every
  node (`rowOf`, `colOf`, and the weights `wOf` with weight two on the loops), the weighted in-degree of every node
  and its guarded reciprocal square root `dinvOf`; a first graph-convolution layer on the product `x · W1`
  (`layer1`, the spelling that scales rows before and after the sum over edges), rectified; a second layer of
  double width on the product of that with the two weight matrices side by side (`layer2`); and from the two halves
  of its columns `mu + eps · exp (min logstd 10)` (`tail`).
-/
import proofs.«123815_j66589172957277_2_alg».proof.KernelIdeal
import proofs.«123815_j66589172957277_2_alg».proof.Proof.Gen.KernelIdeal
import proofs.«123815_j66589172957277_2_alg».proof.Proof.LibGcnHost
import proofs.«123815_j66589172957277_2_alg».proof.Proof.LibDense

noncomputable section

namespace Cert.KernelIdeal.KSpec

open Cert.KernelIdeal Cert.KernelIdeal.Gen Idealize.ShloMosaic

/-- The source entries: row 0 of the edge list, then every node once (the self loops). -/
def rowOf (x1 : IVec S2x800000 32) : IVec S850000 32 :=
  concatenate S850000 0 [⟨S800000, shapeCast _ (extractStridedSlice S1x800000 ![0, 0] x1 slices_S2x800000_S1x800000_0_0) shapeCasts_S1x800000_S800000⟩, ⟨S50000, iotaInDim S50000 32 0⟩] concatenates_S800000_S50000_S850000_d0

/-- The destination entries: row 1 of the edge list, then every node once. -/
def colOf (x1 : IVec S2x800000 32) : IVec S850000 32 :=
  concatenate S850000 0 [⟨S800000, shapeCast _ (extractStridedSlice S1x800000 ![1, 0] x1 slices_S2x800000_S1x800000_1_0) shapeCasts_S1x800000_S800000⟩, ⟨S50000, iotaInDim S50000 32 0⟩] concatenates_S800000_S50000_S850000_d0

/-- The edge weights, then weight two for every self loop. -/
def wOf (x2 : FVec Ideal S800000 .f32) : FVec Ideal S850000 .f32 :=
  concatenate S850000 0 [⟨S800000, x2⟩, ⟨S50000, broadcastInDim S50000 ![] bcast_S_S50000 (constant S_ .f32 0x40000000#32)⟩] concatenates_S800000_S50000_S850000_d0

/-- The weighted in-degree of every node: the weights summed per destination into a zero vector. -/
def degOf (x1 : IVec S2x800000 32) (x2 : FVec Ideal S800000 .f32) : FVec Ideal S50000 .f32 :=
  Host.scatterAdd scatter_S50000_S850000x1_S850000_n_0_0_1 (broadcastInDim S50000 ![] bcast_S_S50000 (constant S_ .f32 0x00000000#32))
    (broadcastInDim S850000x1 ![0] bcast_S850000_S850000x1_0 (colOf x1)) (wOf x2)

/-- The per-node factor: the reciprocal square root of the degree where it is positive, zero elsewhere. -/
def dinvOf (x1 : IVec S2x800000 32) (x2 : FVec Ideal S800000 .f32) : FVec Ideal S50000 .f32 :=
  select (cmpf .ogt (degOf x1 x2) (broadcastInDim S50000 ![] bcast_S_S50000 (constant S_ .f32 0x00000000#32)))
    (Host.rsqrt (degOf x1 x2))
    (broadcastInDim S50000 ![] bcast_S_S50000 (id (constant S_ .f32 0x00000000#32)))

/-- The first layer, width 128. -/
def layer1 (d : FVec Ideal S50000 .f32) (row col : IVec S850000 32) (w : FVec Ideal S850000 .f32)
    (X : FVec Ideal S50000x128 .f32) (b : FVec Ideal S128 .f32) : FVec Ideal S50000x128 .f32 :=
  GcnHost.kLayer gather_S50000x128_S850000x1_S850000x128_1_0_n_n_0_1_1128 scatter_S50000x128_S850000x1_S850000x128_1_0_0_1
    bcast_S50000_S50000x1_0 bcast_S50000x1_S50000x128_0_1 bcast_S850000_S850000x1_0 bcast_S850000x1_S850000x128_0_1
    bcast_S_S50000x128 bcast_S128_S1x128_1 bcast_S1x128_S50000x128_0_1
    d (GcnHost.wrap 50000#32 bcast_S_S850000 row) col w X b

/-- The second layer, width 256. -/
def layer2 (d : FVec Ideal S50000 .f32) (row col : IVec S850000 32) (w : FVec Ideal S850000 .f32)
    (X : FVec Ideal S50000x256 .f32) (b : FVec Ideal S256 .f32) : FVec Ideal S50000x256 .f32 :=
  GcnHost.kLayer gather_S50000x256_S850000x1_S850000x256_1_0_n_n_0_1_1256 scatter_S50000x256_S850000x1_S850000x256_1_0_0_1
    bcast_S50000_S50000x1_0 bcast_S50000x1_S50000x256_0_1 bcast_S850000_S850000x1_0 bcast_S850000x1_S850000x256_0_1
    bcast_S_S50000x256 bcast_S256_S1x256_1 bcast_S1x256_S50000x256_0_1
    d (GcnHost.wrap 50000#32 bcast_S_S850000 row) col w X b

/-- Rectification: the maximum with a zero array. -/
def relu (A : FVec Ideal S50000x128 .f32) : FVec Ideal S50000x128 .f32 :=
  maximumf A (broadcastInDim S50000x128 ![] bcast_S_S50000x128 (constant S_ .f32 0x00000000#32))

/-- The two weight matrices side by side, and the two bias rows end to end. -/
def w23 (x6 x8 : FVec Ideal S128x128 .f32) : FVec Ideal S128x256 .f32 :=
  concatenate S128x256 1 [⟨S128x128, x6⟩, ⟨S128x128, x8⟩] concatenates_S128x128_S128x128_S128x256_d1
def b23 (x7 x9 : FVec Ideal S128 .f32) : FVec Ideal S256 .f32 :=
  concatenate S256 0 [⟨S128, x7⟩, ⟨S128, x9⟩] concatenates_S128_S128_S256_d0

/-- From the double-width layer: its left half plus `eps` times the exponential of its right half capped at ten. -/
def tail (A : FVec Ideal S50000x256 .f32) (eps : FVec Ideal S50000x128 .f32) : FVec Ideal S50000x128 .f32 :=
  addf (extractStridedSlice S50000x128 ![0, 0] A slices_S50000x256_S50000x128_0_0)
    (mulf eps (Host.exp (minimumf (extractStridedSlice S50000x128 ![0, 128] A slices_S50000x256_S50000x128_0_128)
      (broadcastInDim S50000x128 ![] bcast_S_S50000x128 (constant S_ .f32 0x41200000#32)))))

/-- The hidden layer: the first layer on `x · W1`, rectified. -/
def hidden (x0 : FVec Ideal S50000x512 .f32) (x1 : IVec S2x800000 32) (x2 : FVec Ideal S800000 .f32)
    (x4 : FVec Ideal S512x128 .f32) (x5 : FVec Ideal S128 .f32) : FVec Ideal S50000x128 .f32 :=
  relu (layer1 (dinvOf x1 x2) (rowOf x1) (colOf x1) (wOf x2) (Dense.mm x0 x4) x5)

/-- The program's result. -/
def out (x0 : FVec Ideal S50000x512 .f32) (x1 : IVec S2x800000 32) (x2 : FVec Ideal S800000 .f32)
    (x3 : FVec Ideal S50000x128 .f32) (x4 : FVec Ideal S512x128 .f32) (x5 : FVec Ideal S128 .f32)
    (x6 : FVec Ideal S128x128 .f32) (x7 : FVec Ideal S128 .f32) (x8 : FVec Ideal S128x128 .f32)
    (x9 : FVec Ideal S128 .f32) : FVec Ideal S50000x128 .f32 :=
  tail (layer2 (dinvOf x1 x2) (rowOf x1) (colOf x1) (wOf x2) (Dense.mm (hidden x0 x1 x2 x4 x5) (w23 x6 x8)) (b23 x7 x9)) x3

end Cert.KernelIdeal.KSpec

end
-- ==== Proof.KRegion.lean ====
/-
  What each of the kernel program's two matrix-product regions leaves in its output array: the whole product.

  A region walks ten blocks of 5000 rows; at block `t` its body multiplies rows `5000·t … 5000·t+4999` of the left
  array by the whole right array and writes the block back. Row `p` of the output therefore is row `p` of the product
  of the two whole arrays.

  The steps, per region. The three index maps are read off once over the ten points: the left and the output window sit
  at block `(t, 0)`, the right window at block `(0, 0)`. The body's one store is the vector unit's matmul of its two
  loaded blocks into a zero accumulator, which is the matrix product of the blocks. Entry `(y, q)` of the product of
  block `t` of the left array with the right array is `∑ k, L(5000·t + y, k) · R(k, q)`, which is entry
  `(5000·t + y, q)` of the whole product: a row of a product depends on the same row of the left factor only. So what
  point `t` writes back is block `t` of the whole product, and row `r` of the output lies in the block of point
  `r / 5000`, so the ten blocks cover the array.
-/
import proofs.«123815_j66589172957277_2_alg».proof.Proof.Gen.KernelIdeal.Frame
import Idealize.ShloMosaic.Lib.Pipeline.Value
import proofs.«123815_j66589172957277_2_alg».proof.Proof.LibDense

noncomputable section

namespace Cert.KernelIdeal.RegionValue

open Cert.KernelIdeal Cert.KernelIdeal.Gen Idealize.ShloMosaic Idealize.ShloMosaic.TcCoe Idealize.SL.Sem
open Idealize.ShloMosaic.ValueIdx

variable (V : (c : Dev nD) → (b : Ref sig .tc) → Buf (Elt Ideal) ((c : Thread nD τ).loc b))

/-- The body's loads and its store go through the whole staging buffer: both offsets are zero. -/
theorem zero_offsets : (![0, 0] : Fin 2 → Nat) = fun _ => 0 := funext fun a => by fin_cases a <;> rfl

/-- A block of rows of a product. If `A'` is the rows `off, off + 1, …` of `A` and `B'` is `B`, then entry `j` of
    `A' B'` is the entry of `A B` in row `off + j₀` and the same column: both are the sum over `k` of the same
    products, since a row of a product reads that row of the left factor only. -/
theorem mm_block_rows {M Mb K N : ℕ} (off : ℕ) (A : Dense.Mat M K) (B : Dense.Mat K N)
    (A' : Dense.Mat Mb K) (B' : Dense.Mat K N)
    (hA : ∀ (y : (⟨2, ![Mb, K]⟩ : Shape).Idx) (i : (⟨2, ![M, K]⟩ : Shape).Idx),
      (i 0).val = off + (y 0).val → (i 1).val = (y 1).val → A' y = A i)
    (hB : ∀ y, B' y = B y)
    (j : (⟨2, ![Mb, N]⟩ : Shape).Idx) (i : (⟨2, ![M, N]⟩ : Shape).Idx)
    (h0 : (i 0).val = off + (j 0).val) (h1 : (i 1).val = (j 1).val) :
    Dense.mm A' B' j = Dense.mm A B i := by
  obtain rfl : B' = B := funext hB
  obtain ⟨y, q, rfl⟩ : ∃ (y : Fin Mb) (q : Fin N), j = ix2 y q := ⟨j 0, j 1, eq_ix2 j⟩
  obtain ⟨p, q', rfl⟩ : ∃ (p : Fin M) (q' : Fin N), i = ix2 p q' := ⟨i 0, i 1, eq_ix2 i⟩
  obtain rfl : q' = q := Fin.ext h1
  exact Dense.mm_rows A A' B' p y (fun k => hA (ix2 y k) (ix2 p k) h0 rfl) q'

/-! ## Region 0: a [50000, 512] array times a [512, 128] array, in ten blocks of 5000 rows -/

/-- The three index maps over the ten points: the left window and the output window are at block `(t, 0)`, the right
    window at block `(0, 0)`. -/
theorem index_maps0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The body's stored value is the matrix product of its two loaded blocks: a matmul contracting the left operand's
    columns with the right operand's rows, no batch axis, into a zero accumulator. -/
theorem payload0_eq_mm (x0 : Vec Ideal S5000x512 .f32) (x1 : Vec Ideal S512x128 .f32) :
    k0_pay1 (F := Ideal) x0 x1 = Dense.mm x0 x1 :=
  Dense.matmul_zero_eq_mm dot_S5000x512_S512x128_S5000x128_1_0_0_1_n_n rfl rfl rfl rfl rfl rfl none x0 x1

/-- What point `t` writes back is block `t` of the whole product: the left block is rows `5000·t …` of the left array,
    the right block is the right array, and the output block sits at rows `5000·t …` of the output. -/
theorem flushed0_eq (c : Dev nD) (t : Fin cfg0.N) :
    (Gen.dat0 (F := Ideal) V c).flushed 2 t
      = ((cfg0.win 2).blk t).view.read (Elt Ideal) (Dense.mm (V c main_arg0) (V c main_arg4)) := by
  show (cfg0.win 2).cut (grid0.coords t) ((Gen.dat0 (F := Ideal) V c).after 2 t) = _
  rw [Gen.after0_2]
  unfold Gen.out0_2
  rw [View.canon_unit_zero zero_offsets]
  simp only [View.ld_unit_zero (S := S5000x512) zero_offsets, View.ld_unit_zero (S := S512x128) zero_offsets]
  rw [payload0_eq_mm]
  obtain ⟨e00, e01, e10, e11, e20, e21⟩ := index_maps0 t
  funext j
  show Dense.mm (iblk0 V c 0 t) (iblk0 V c 1 t) (win0_2.xinj (grid0.coords t) j)
    = Dense.mm (V c main_arg0) (V c main_arg4) (((cfg0.win 2).blk t).view.emb j)
  refine mm_block_rows (t.val * 5000) (V c main_arg0) (V c main_arg4) (iblk0 V c 0 t) (iblk0 V c 1 t) ?_ ?_ _ _ ?_ ?_
  · intro y i h0 h1
    show V c main_arg0 (((cfg0.win 0).blk t).view.emb y) = V c main_arg0 i
    refine congrArg _ (funext fun a => Fin.ext ?_)
    match a with
    | ⟨0, _⟩ => show win0_0.index t (0 : Fin 2) * 5000 + 1 * (y 0).val = (i 0).val; omega
    | ⟨1, _⟩ => show win0_0.index t (1 : Fin 2) * 512 + 1 * (y 1).val = (i 1).val; omega
  · intro y
    show V c main_arg4 (((cfg0.win 1).blk t).view.emb y) = V c main_arg4 y
    refine congrArg _ (funext fun a => Fin.ext ?_)
    match a with
    | ⟨0, _⟩ => show win0_1.index t (0 : Fin 2) * 512 + 1 * (y 0).val = (y 0).val; omega
    | ⟨1, _⟩ => show win0_1.index t (1 : Fin 2) * 128 + 1 * (y 1).val = (y 1).val; omega
  · show win0_2.index t (0 : Fin 2) * 5000 + 1 * (j 0).val = t.val * 5000 + (j 0).val; omega
  · show win0_2.index t (1 : Fin 2) * 128 + 1 * (j 1).val = (j 1).val; omega

/-- An index of the output array is in point `t`'s block iff each coordinate is in the block's range on its axis. -/
theorem mem_block0 (t : Fin cfg0.N) (i : S50000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v16).slice (win0_2.rect t)).set ↔ _
  rw [View.set_slice_whole, Rect.mem_set_unit]
  exact Iff.rfl

/-- The ten blocks cover the output array: row `r` is in the block of point `r / 5000`. -/
theorem blocks_cover0 (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ : ∃ t : Fin cfg0.N, t.val = (i 0).val / 5000 :=
    ⟨⟨(i 0).val / 5000, Nat.lt_of_lt_of_eq (by omega) Gen.N_0.symm⟩, rfl⟩
  obtain ⟨-, -, -, -, e20, e21⟩ := index_maps0 t
  refine ⟨t, Gen.flush0_2 t, ?_⟩
  rw [mem_block0]
  intro a
  match a with
  | ⟨0, _⟩ =>
    show win0_2.index t (0 : Fin 2) * 5000 ≤ (i 0).val ∧ (i 0).val < win0_2.index t (0 : Fin 2) * 5000 + 5000
    omega
  | ⟨1, _⟩ =>
    show win0_2.index t (1 : Fin 2) * 128 ≤ (i 1).val ∧ (i 1).val < win0_2.index t (1 : Fin 2) * 128 + 128
    omega

/-- Region 0's output array after its ten points: the product of its two input arrays as the region found them. -/
theorem region0 (c : Dev nD) :
    (Gen.dat0 (F := Ideal) V c).arrAt 2 cfg0.N = Dense.mm (V c main_arg0) (V c main_arg4) :=
  (Gen.dat0 (F := Ideal) V c).arrAt_eq_of_cover 2 (Dense.mm (V c main_arg0) (V c main_arg4))
    (fun t _ => flushed0_eq V c t) blocks_cover0

/-! ## Region 1: a [50000, 128] array times a [128, 256] array, in ten blocks of 5000 rows -/

/-- The three index maps over the ten points: the left window and the output window are at block `(t, 0)`, the right
    window at block `(0, 0)`. -/
theorem index_maps1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The body's stored value is the matrix product of its two loaded blocks: each block is first cast to its own shape,
    which changes nothing, and the matmul contracts the left operand's columns with the right operand's rows, no batch
    axis, into a zero accumulator. -/
theorem payload1_eq_mm (x0 : Vec Ideal S5000x128 .f32) (x1 : Vec Ideal S128x256 .f32) :
    k1_pay1 (F := Ideal) x0 x1 = Dense.mm x0 x1 := by
  show matmul (F := Ideal) dot_S5000x128_S128x256_S5000x256_1_0_0_1_n_n none
      (shapeCast S5000x128 x0 shapeCasts_S5000x128_S5000x128) (shapeCast S128x256 x1 shapeCasts_S128x256_S128x256)
      (constant S5000x256 .f32 0x00000000#32) = _
  rw [shapeCast_self, shapeCast_self]
  exact Dense.matmul_zero_eq_mm dot_S5000x128_S128x256_S5000x256_1_0_0_1_n_n rfl rfl rfl rfl rfl rfl none x0 x1

/-- What point `t` writes back is block `t` of the whole product: the left block is rows `5000·t …` of the left array,
    the right block is the right array, and the output block sits at rows `5000·t …` of the output. -/
theorem flushed1_eq (c : Dev nD) (t : Fin cfg1.N) :
    (Gen.dat1 (F := Ideal) V c).flushed 2 t
      = ((cfg1.win 2).blk t).view.read (Elt Ideal) (Dense.mm (V c main_v39) (V c main_v40)) := by
  show (cfg1.win 2).cut (grid1.coords t) ((Gen.dat1 (F := Ideal) V c).after 2 t) = _
  rw [Gen.after1_2]
  unfold Gen.out1_2
  rw [View.canon_unit_zero zero_offsets]
  simp only [View.ld_unit_zero (S := S5000x128) zero_offsets, View.ld_unit_zero (S := S128x256) zero_offsets]
  rw [payload1_eq_mm]
  obtain ⟨e00, e01, e10, e11, e20, e21⟩ := index_maps1 t
  funext j
  show Dense.mm (iblk1 V c 0 t) (iblk1 V c 1 t) (win1_2.xinj (grid1.coords t) j)
    = Dense.mm (V c main_v39) (V c main_v40) (((cfg1.win 2).blk t).view.emb j)
  refine mm_block_rows (t.val * 5000) (V c main_v39) (V c main_v40) (iblk1 V c 0 t) (iblk1 V c 1 t) ?_ ?_ _ _ ?_ ?_
  · intro y i h0 h1
    show V c main_v39 (((cfg1.win 0).blk t).view.emb y) = V c main_v39 i
    refine congrArg _ (funext fun a => Fin.ext ?_)
    match a with
    | ⟨0, _⟩ => show win1_0.index t (0 : Fin 2) * 5000 + 1 * (y 0).val = (i 0).val; omega
    | ⟨1, _⟩ => show win1_0.index t (1 : Fin 2) * 128 + 1 * (y 1).val = (i 1).val; omega
  · intro y
    show V c main_v40 (((cfg1.win 1).blk t).view.emb y) = V c main_v40 y
    refine congrArg _ (funext fun a => Fin.ext ?_)
    match a with
    | ⟨0, _⟩ => show win1_1.index t (0 : Fin 2) * 128 + 1 * (y 0).val = (y 0).val; omega
    | ⟨1, _⟩ => show win1_1.index t (1 : Fin 2) * 256 + 1 * (y 1).val = (y 1).val; omega
  · show win1_2.index t (0 : Fin 2) * 5000 + 1 * (j 0).val = t.val * 5000 + (j 0).val; omega
  · show win1_2.index t (1 : Fin 2) * 256 + 1 * (j 1).val = (j 1).val; omega

/-- An index of the output array is in point `t`'s block iff each coordinate is in the block's range on its axis. -/
theorem mem_block1 (t : Fin cfg1.N) (i : S50000x256.Idx) :
    i ∈ ((cfg1.win 2).blk t).view.set ↔ ∀ a : Fin 2, win1_2.index t a * S5000x256.size a ≤ (i a).val
      ∧ (i a).val < win1_2.index t a * S5000x256.size a + S5000x256.size a := by
  show i ∈ ((View.whole main_v42).slice (win1_2.rect t)).set ↔ _
  rw [View.set_slice_whole, Rect.mem_set_unit]
  exact Iff.rfl

/-- The ten blocks cover the output array: row `r` is in the block of point `r / 5000`. -/
theorem blocks_cover1 (i : S50000x256.Idx) :
    ∃ t : Fin cfg1.N, (cfg1.win 2).flush t = true ∧ i ∈ ((cfg1.win 2).blk t).view.set := by
  have hi0 : (i 0).val < 50000 := (i 0).isLt
  have hi1 : (i 1).val < 256 := (i 1).isLt
  obtain ⟨t, ht⟩ : ∃ t : Fin cfg1.N, t.val = (i 0).val / 5000 :=
    ⟨⟨(i 0).val / 5000, Nat.lt_of_lt_of_eq (by omega) Gen.N_1.symm⟩, rfl⟩
  obtain ⟨-, -, -, -, e20, e21⟩ := index_maps1 t
  refine ⟨t, Gen.flush1_2 t, ?_⟩
  rw [mem_block1]
  intro a
  match a with
  | ⟨0, _⟩ =>
    show win1_2.index t (0 : Fin 2) * 5000 ≤ (i 0).val ∧ (i 0).val < win1_2.index t (0 : Fin 2) * 5000 + 5000
    omega
  | ⟨1, _⟩ =>
    show win1_2.index t (1 : Fin 2) * 256 ≤ (i 1).val ∧ (i 1).val < win1_2.index t (1 : Fin 2) * 256 + 256
    omega

/-- Region 1's output array after its ten points: the product of its two input arrays as the region found them. -/
theorem region1 (c : Dev nD) :
    (Gen.dat1 (F := Ideal) V c).arrAt 2 cfg1.N = Dense.mm (V c main_v39) (V c main_v40) :=
  (Gen.dat1 (F := Ideal) V c).arrAt_eq_of_cover 2 (Dense.mm (V c main_v39) (V c main_v40))
    (fun t _ => flushed1_eq V c t) blocks_cover1

end Cert.KernelIdeal.RegionValue

end
-- ==== Proof.LibTypedRef.lean ====
/-
  Typed references: a value carried to a buffer's own type and back is the value.

  A host operation of a called function is stated over typed references: a reference together with the equation that
  its buffer's type is the value's type. The operation's function is conjugated by the transport along that equation
  (`toBuf` into the buffer's type, `ofBuf` out of it). Reading a chain of such operations back therefore leaves
  pairs `ofBuf (toBuf v)` around every intermediate value; each pair is the identity.
-/
import Idealize.ShloMosaic.Lib.StableHlo

namespace Cert.TypedRef

open Idealize.ShloMosaic Idealize.ShloMosaic.StableHlo

/-- Carrying a value to the buffer's type and back gives the value. -/
theorem ofBuf_toBuf {sig : RefSig} {T : BufTy} {Val : EltTy → Type} (x : TRef sig T) (v : T.Contents Val) :
    x.ofBuf (x.toBuf v) = v := by
  obtain ⟨r, h, a, b⟩ := x
  subst h
  rfl

/-- Carrying a buffer's contents to the value's type and back gives the contents. -/
theorem toBuf_ofBuf {sig : RefSig} {T : BufTy} {Val : EltTy → Type} (x : TRef sig T) (v : x.ref.ty.Contents Val) :
    x.toBuf (x.ofBuf v) = v := by
  obtain ⟨r, h, a, b⟩ := x
  subst h
  rfl

end Cert.TypedRef
-- ==== Proof.KRun.lean ====
/-
  The kernel program's run with its result named: every weakly fair execution terminates, nothing faulting, with the
  result buffer at what the last boundary of the run holds there, and the ten argument arrays as launched.

  The program runs as eight segments in order (host stretches and the two matrix-product regions) under the library's
  launch theorem for several regions; its closing state has every unscoped buffer at the last boundary's contents,
  which is read here at the result buffer as well as at the ten arguments.
-/
import proofs.«123815_j66589172957277_2_alg».proof.Proof.Gen.KernelIdeal.Frame

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, the result buffer read at the last boundary's contents. -/
theorem run_named : θ_run defs (onTc (τ := τ) (main (F := F))) ⟨m, fun _ => 0, ρ⟩ (fun r => ∀ c : Dev nD,
      r.2.mem ((c.tc : Thread nD τ).loc main_v71) = W8 m ρ c (Proc.devRef .tc main_v71)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v71 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c)⟩)

end Cert.KernelIdeal.KRun

end
-- ==== Proof.KTail.lean ====
/-
  The last stretch of the kernel program: from the contents of its buffers when the second region has ended, the
  result buffer is the tail (left half plus `eps` times the exponential of the capped right half) of the
  double-width layer on the second region's product.
-/
import proofs.«123815_j66589172957277_2_alg».proof.Proof.Gen.KernelIdeal.Frame
import proofs.«123815_j66589172957277_2_alg».proof.Proof.KSpec

noncomputable section

namespace Cert.KernelIdeal.KTail

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg)

set_option maxHeartbeats 4000000 in
/-- The result buffer at the end, from the buffers as the second region leaves them. -/
theorem W8_v71 (c : Dev nD) :
    W8 (F := Ideal) m ρ c (Proc.devRef .tc main_v71)
      = KSpec.tail (KSpec.layer2 (W7 (F := Ideal) m ρ c (Proc.devRef .tc main_v15)) (W7 (F := Ideal) m ρ c (Proc.devRef .tc main_v3))
          (W7 (F := Ideal) m ρ c (Proc.devRef .tc main_v6)) (W7 (F := Ideal) m ρ c (Proc.devRef .tc main_v8))
          (W7 (F := Ideal) m ρ c (Proc.devRef .tc main_v42)) (W7 (F := Ideal) m ρ c (Proc.devRef .tc main_v41)))
        (W7 (F := Ideal) m ρ c (Proc.devRef .tc main_arg3)) := by
  show StableHlo.after hostOps2 (W7 (F := Ideal) m ρ c) (Proc.devRef .tc main_v71) = _
  generalize W7 (F := Ideal) m ρ c = V
  simp only [hostOps2]
  after_results_simp
  rfl

end Cert.KernelIdeal.KTail

end
-- ==== Proof.KChain.lean ====
/-
  The kernel program's run, with its result named: every weakly fair execution ends with the result array at
  `KSpec.out` of the ten argument arrays as launched, the arguments unchanged.

  The result buffer's contents at the last boundary are walked back to the launch memory, boundary by boundary:
  before the first region the edge lists with their self loops, the weights and the per-node factor are functions of
  the edge arguments; the first region leaves the product `x · W1` in its output array and keeps every other buffer;
  the stretch between the regions makes the rectified first layer, the two weight matrices side by side and the two
  bias rows end to end; the second region leaves the product of those; the last stretch is the double-width layer and
  the tail. Each stretch is read once, from arbitrary contents at its entry, as the matching function of `KSpec`.
-/
import proofs.«123815_j66589172957277_2_alg».proof.Proof.Gen.KernelIdeal.Frame
import proofs.«123815_j66589172957277_2_alg».proof.Proof.KSpec
import proofs.«123815_j66589172957277_2_alg».proof.Proof.KRegion
import proofs.«123815_j66589172957277_2_alg».proof.Proof.LibTypedRef
import proofs.«123815_j66589172957277_2_alg».proof.Proof.KRun
import proofs.«123815_j66589172957277_2_alg».proof.Proof.KTail

noncomputable section

namespace Cert.KernelIdeal.KChain

open Cert.KernelIdeal Cert.KernelIdeal.Gen Idealize.ShloMosaic Idealize.ShloMosaic.TcCoe Idealize.SL.Sem

/-- Two arrays end to end along an axis: `concatenate` of a two-element list, its side condition stated on the two
    shapes alone (so that it does not mention the arrays). -/
def cat2 {α : Type} (t : Shape) (a : Fin t.rank) (s1 s2 : Shape) (h : Shape.Concatenates [s1, s2] t a)
    (x : s1.Idx → α) (y : s2.Idx → α) : t.Idx → α :=
  concatenate t a [⟨s1, x⟩, ⟨s2, y⟩] h

theorem concatenate_two {α : Type} (t : Shape) (a : Fin t.rank) (s1 s2 : Shape) (x : s1.Idx → α) (y : s2.Idx → α)
    (h : Shape.Concatenates (List.map (fun p : (s : Shape) × (s.Idx → α) => p.1) [⟨s1, x⟩, ⟨s2, y⟩]) t a) :
    concatenate t a [⟨s1, x⟩, ⟨s2, y⟩] h = cat2 t a s1 s2 h x y := rfl

open Idealize.ShloMosaic.StableHlo in
/-- One rewriting pass that reads a fold of literal host operations at a buffer: every operation's result at its own
    buffer is its function's value, at any other buffer what was there before. -/
local macro "fold_results" : tactic =>
  `(tactic| (simp (disch := decide) only [after_cons, after_nil, concatenate_two,
      nullary_result', unary_result', binary_result', ternary_result', reshape_result',
      nullary_result_ne', unary_result_ne', binary_result_ne', ternary_result_ne', reshape_result_ne']))

variable (m : (ℓ : Loc nD τ sig) → Buf (Elt Ideal) ℓ) (ρ : Dev nD → PrngReg)

/-! A typed reference at a literal buffer carries its value unchanged: the buffer's type is the value's by computation. -/
theorem toBuf_v15 (h a b) (v : (⟨S50000, .f32⟩ : BufTy).Contents (Elt Ideal)) :
    (StableHlo.TRef.of main_v15 h a b : StableHlo.TRef sig ⟨S50000, .f32⟩).toBuf v = v := rfl
theorem ofBuf_v13 (h a b) (v : (⟨S50000, .i1⟩ : BufTy).Contents (Elt Ideal)) :
    (StableHlo.TRef.of main_v13 h a b : StableHlo.TRef sig ⟨S50000, .i1⟩).ofBuf v = v := rfl
theorem ofBuf_v14 (h a b) (v : (⟨S50000, .f32⟩ : BufTy).Contents (Elt Ideal)) :
    (StableHlo.TRef.of main_v14 h a b : StableHlo.TRef sig ⟨S50000, .f32⟩).ofBuf v = v := rfl
theorem ofBuf_cst_2 (h a b) (v : (⟨S_, .f32⟩ : BufTy).Contents (Elt Ideal)) :
    (StableHlo.TRef.of main_cst_2 h a b : StableHlo.TRef sig ⟨S_, .f32⟩).ofBuf v = v := rfl
theorem toBuf_v39 (h a b) (v : (⟨S50000x128, .f32⟩ : BufTy).Contents (Elt Ideal)) :
    (StableHlo.TRef.of main_v39 h a b : StableHlo.TRef sig ⟨S50000x128, .f32⟩).toBuf v = v := rfl
theorem ofBuf_v38 (h a b) (v : (⟨S50000x128, .f32⟩ : BufTy).Contents (Elt Ideal)) :
    (StableHlo.TRef.of main_v38 h a b : StableHlo.TRef sig ⟨S50000x128, .f32⟩).ofBuf v = v := rfl

/-! ## Before the first region: the edge lists, the weights and the per-node factor; the arguments as launched -/

theorem W2_v3 (c : Dev nD) : Gen.W2 (F := Ideal) m ρ c (Proc.devRef .tc main_v3) = KSpec.rowOf (m ((c.tc : Thread nD τ).loc main_arg1)) := by
  show StableHlo.after hostOps0_1 (StableHlo.after hostOps0 (W0 m ρ c)) (Proc.devRef .tc main_v3) = _
  simp only [hostOps0_1, hostOps0]
  fold_results
  rfl

theorem W2_v6 (c : Dev nD) : Gen.W2 (F := Ideal) m ρ c (Proc.devRef .tc main_v6) = KSpec.colOf (m ((c.tc : Thread nD τ).loc main_arg1)) := by
  show StableHlo.after hostOps0_1 (StableHlo.after hostOps0 (W0 m ρ c)) (Proc.devRef .tc main_v6) = _
  simp only [hostOps0_1, hostOps0]
  fold_results
  rfl

theorem W2_v8 (c : Dev nD) : Gen.W2 (F := Ideal) m ρ c (Proc.devRef .tc main_v8) = KSpec.wOf (m ((c.tc : Thread nD τ).loc main_arg2)) := by
  show StableHlo.after hostOps0_1 (StableHlo.after hostOps0 (W0 m ρ c)) (Proc.devRef .tc main_v8) = _
  simp only [hostOps0_1, hostOps0]
  fold_results
  rfl

theorem W2_v15 (c : Dev nD) : Gen.W2 (F := Ideal) m ρ c (Proc.devRef .tc main_v15) = KSpec.dinvOf (m ((c.tc : Thread nD τ).loc main_arg1)) (m ((c.tc : Thread nD τ).loc main_arg2)) := by
  show StableHlo.after hostOps0_1 (StableHlo.after hostOps0 (W0 m ρ c)) (Proc.devRef .tc main_v15) = _
  simp only [hostOps0_1, hostOps0]
  fold_results
  simp only [Cert.TypedRef.ofBuf_toBuf, toBuf_v15, ofBuf_v13, ofBuf_v14, ofBuf_cst_2]
  unfold KSpec.dinvOf KSpec.degOf
  rfl

theorem W2_arg0 (c : Dev nD) : Gen.W2 (F := Ideal) m ρ c (Proc.devRef .tc main_arg0) = (m ((c.tc : Thread nD τ).loc main_arg0)) := by
  show StableHlo.after hostOps0_1 (StableHlo.after hostOps0 (W0 m ρ c)) (Proc.devRef .tc main_arg0) = _
  simp only [hostOps0_1, hostOps0]
  fold_results

theorem W2_arg3 (c : Dev nD) : Gen.W2 (F := Ideal) m ρ c (Proc.devRef .tc main_arg3) = (m ((c.tc : Thread nD τ).loc main_arg3)) := by
  show StableHlo.after hostOps0_1 (StableHlo.after hostOps0 (W0 m ρ c)) (Proc.devRef .tc main_arg3) = _
  simp only [hostOps0_1, hostOps0]
  fold_results

theorem W2_arg4 (c : Dev nD) : Gen.W2 (F := Ideal) m ρ c (Proc.devRef .tc main_arg4) = (m ((c.tc : Thread nD τ).loc main_arg4)) := by
  show StableHlo.after hostOps0_1 (StableHlo.after hostOps0 (W0 m ρ c)) (Proc.devRef .tc main_arg4) = _
  simp only [hostOps0_1, hostOps0]
  fold_results

theorem W2_arg5 (c : Dev nD) : Gen.W2 (F := Ideal) m ρ c (Proc.devRef .tc main_arg5) = (m ((c.tc : Thread nD τ).loc main_arg5)) := by
  show StableHlo.after hostOps0_1 (StableHlo.after hostOps0 (W0 m ρ c)) (Proc.devRef .tc main_arg5) = _
  simp only [hostOps0_1, hostOps0]
  fold_results

theorem W2_arg6 (c : Dev nD) : Gen.W2 (F := Ideal) m ρ c (Proc.devRef .tc main_arg6) = (m ((c.tc : Thread nD τ).loc main_arg6)) := by
  show StableHlo.after hostOps0_1 (StableHlo.after hostOps0 (W0 m ρ c)) (Proc.devRef .tc main_arg6) = _
  simp only [hostOps0_1, hostOps0]
  fold_results

theorem W2_arg7 (c : Dev nD) : Gen.W2 (F := Ideal) m ρ c (Proc.devRef .tc main_arg7) = (m ((c.tc : Thread nD τ).loc main_arg7)) := by
  show StableHlo.after hostOps0_1 (StableHlo.after hostOps0 (W0 m ρ c)) (Proc.devRef .tc main_arg7) = _
  simp only [hostOps0_1, hostOps0]
  fold_results

theorem W2_arg8 (c : Dev nD) : Gen.W2 (F := Ideal) m ρ c (Proc.devRef .tc main_arg8) = (m ((c.tc : Thread nD τ).loc main_arg8)) := by
  show StableHlo.after hostOps0_1 (StableHlo.after hostOps0 (W0 m ρ c)) (Proc.devRef .tc main_arg8) = _
  simp only [hostOps0_1, hostOps0]
  fold_results

theorem W2_arg9 (c : Dev nD) : Gen.W2 (F := Ideal) m ρ c (Proc.devRef .tc main_arg9) = (m ((c.tc : Thread nD τ).loc main_arg9)) := by
  show StableHlo.after hostOps0_1 (StableHlo.after hostOps0 (W0 m ρ c)) (Proc.devRef .tc main_arg9) = _
  simp only [hostOps0_1, hostOps0]
  fold_results

/-! ## Across the first region: its output array is the product; every other buffer is kept -/

theorem W3_v3 (c : Dev nD) : Gen.W3 (F := Ideal) m ρ c (Proc.devRef .tc main_v3) = KSpec.rowOf (m ((c.tc : Thread nD τ).loc main_arg1)) :=
  (W3_of_ne m ρ c main_v3 (by decide)).trans (W2_v3 m ρ c)

theorem W3_v6 (c : Dev nD) : Gen.W3 (F := Ideal) m ρ c (Proc.devRef .tc main_v6) = KSpec.colOf (m ((c.tc : Thread nD τ).loc main_arg1)) :=
  (W3_of_ne m ρ c main_v6 (by decide)).trans (W2_v6 m ρ c)

theorem W3_v8 (c : Dev nD) : Gen.W3 (F := Ideal) m ρ c (Proc.devRef .tc main_v8) = KSpec.wOf (m ((c.tc : Thread nD τ).loc main_arg2)) :=
  (W3_of_ne m ρ c main_v8 (by decide)).trans (W2_v8 m ρ c)

theorem W3_v15 (c : Dev nD) : Gen.W3 (F := Ideal) m ρ c (Proc.devRef .tc main_v15) = KSpec.dinvOf (m ((c.tc : Thread nD τ).loc main_arg1)) (m ((c.tc : Thread nD τ).loc main_arg2)) :=
  (W3_of_ne m ρ c main_v15 (by decide)).trans (W2_v15 m ρ c)

theorem W3_arg3 (c : Dev nD) : Gen.W3 (F := Ideal) m ρ c (Proc.devRef .tc main_arg3) = (m ((c.tc : Thread nD τ).loc main_arg3)) :=
  (W3_of_ne m ρ c main_arg3 (by decide)).trans (W2_arg3 m ρ c)

theorem W3_arg5 (c : Dev nD) : Gen.W3 (F := Ideal) m ρ c (Proc.devRef .tc main_arg5) = (m ((c.tc : Thread nD τ).loc main_arg5)) :=
  (W3_of_ne m ρ c main_arg5 (by decide)).trans (W2_arg5 m ρ c)

theorem W3_arg6 (c : Dev nD) : Gen.W3 (F := Ideal) m ρ c (Proc.devRef .tc main_arg6) = (m ((c.tc : Thread nD τ).loc main_arg6)) :=
  (W3_of_ne m ρ c main_arg6 (by decide)).trans (W2_arg6 m ρ c)

theorem W3_arg7 (c : Dev nD) : Gen.W3 (F := Ideal) m ρ c (Proc.devRef .tc main_arg7) = (m ((c.tc : Thread nD τ).loc main_arg7)) :=
  (W3_of_ne m ρ c main_arg7 (by decide)).trans (W2_arg7 m ρ c)

theorem W3_arg8 (c : Dev nD) : Gen.W3 (F := Ideal) m ρ c (Proc.devRef .tc main_arg8) = (m ((c.tc : Thread nD τ).loc main_arg8)) :=
  (W3_of_ne m ρ c main_arg8 (by decide)).trans (W2_arg8 m ρ c)

theorem W3_arg9 (c : Dev nD) : Gen.W3 (F := Ideal) m ρ c (Proc.devRef .tc main_arg9) = (m ((c.tc : Thread nD τ).loc main_arg9)) :=
  (W3_of_ne m ρ c main_arg9 (by decide)).trans (W2_arg9 m ρ c)

theorem W3_v16 (c : Dev nD) : Gen.W3 (F := Ideal) m ρ c (Proc.devRef .tc main_v16) = Dense.mm (m ((c.tc : Thread nD τ).loc main_arg0)) (m ((c.tc : Thread nD τ).loc main_arg4)) := by
  refine (W3_arr m ρ c 2).trans ?_
  rw [RegionValue.region0 (V2 m ρ) c]
  show Dense.mm (W2 m ρ c (Proc.devRef .tc main_arg0)) (W2 m ρ c (Proc.devRef .tc main_arg4)) = _
  rw [W2_arg0 m ρ c, W2_arg4 m ρ c]

/-! ## Between the regions, read from any contents `V` at the first region's exit: the hidden layer, the two weight
    matrices side by side, the two bias rows end to end; the buffers the second layer reads again are kept -/

theorem fold1_v39 (V : Valuation τ sig (Elt Ideal)) :
    (StableHlo.after hostOps1_2 (StableHlo.after hostOps1_1 (StableHlo.after (hostOps1 (F := Ideal)) V))) (Proc.devRef .tc main_v39)
      = KSpec.relu (KSpec.layer1 (V (Proc.devRef .tc main_v15)) (V (Proc.devRef .tc main_v3)) (V (Proc.devRef .tc main_v6)) (V (Proc.devRef .tc main_v8)) (V (Proc.devRef .tc main_v16)) (V (Proc.devRef .tc main_arg5))) := by
  simp only [hostOps1_2, hostOps1_1, hostOps1]
  fold_results
  simp only [Cert.TypedRef.ofBuf_toBuf, toBuf_v39, ofBuf_v38]
  unfold KSpec.relu KSpec.layer1 GcnHost.kLayer GcnHost.wrap
  rfl

theorem fold1_v40 (V : Valuation τ sig (Elt Ideal)) :
    (StableHlo.after hostOps1_2 (StableHlo.after hostOps1_1 (StableHlo.after (hostOps1 (F := Ideal)) V))) (Proc.devRef .tc main_v40) = KSpec.w23 (V (Proc.devRef .tc main_arg6)) (V (Proc.devRef .tc main_arg8)) := by
  simp only [hostOps1_2, hostOps1_1, hostOps1]
  fold_results
  rfl

theorem fold1_v41 (V : Valuation τ sig (Elt Ideal)) :
    (StableHlo.after hostOps1_2 (StableHlo.after hostOps1_1 (StableHlo.after (hostOps1 (F := Ideal)) V))) (Proc.devRef .tc main_v41) = KSpec.b23 (V (Proc.devRef .tc main_arg7)) (V (Proc.devRef .tc main_arg9)) := by
  simp only [hostOps1_2, hostOps1_1, hostOps1]
  fold_results
  rfl

theorem fold1_v15 (V : Valuation τ sig (Elt Ideal)) : (StableHlo.after hostOps1_2 (StableHlo.after hostOps1_1 (StableHlo.after (hostOps1 (F := Ideal)) V))) (Proc.devRef .tc main_v15) = (V (Proc.devRef .tc main_v15)) := by
  simp only [hostOps1_2, hostOps1_1, hostOps1]
  fold_results

theorem fold1_v3 (V : Valuation τ sig (Elt Ideal)) : (StableHlo.after hostOps1_2 (StableHlo.after hostOps1_1 (StableHlo.after (hostOps1 (F := Ideal)) V))) (Proc.devRef .tc main_v3) = (V (Proc.devRef .tc main_v3)) := by
  simp only [hostOps1_2, hostOps1_1, hostOps1]
  fold_results

theorem fold1_v6 (V : Valuation τ sig (Elt Ideal)) : (StableHlo.after hostOps1_2 (StableHlo.after hostOps1_1 (StableHlo.after (hostOps1 (F := Ideal)) V))) (Proc.devRef .tc main_v6) = (V (Proc.devRef .tc main_v6)) := by
  simp only [hostOps1_2, hostOps1_1, hostOps1]
  fold_results

theorem fold1_v8 (V : Valuation τ sig (Elt Ideal)) : (StableHlo.after hostOps1_2 (StableHlo.after hostOps1_1 (StableHlo.after (hostOps1 (F := Ideal)) V))) (Proc.devRef .tc main_v8) = (V (Proc.devRef .tc main_v8)) := by
  simp only [hostOps1_2, hostOps1_1, hostOps1]
  fold_results

theorem fold1_arg3 (V : Valuation τ sig (Elt Ideal)) : (StableHlo.after hostOps1_2 (StableHlo.after hostOps1_1 (StableHlo.after (hostOps1 (F := Ideal)) V))) (Proc.devRef .tc main_arg3) = (V (Proc.devRef .tc main_arg3)) := by
  simp only [hostOps1_2, hostOps1_1, hostOps1]
  fold_results

theorem W6_v39 (c : Dev nD) : Gen.W6 (F := Ideal) m ρ c (Proc.devRef .tc main_v39) = (KSpec.hidden (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5))) := by
  refine (fold1_v39 (W3 m ρ c)).trans ?_
  rw [W3_v15 m ρ c, W3_v3 m ρ c, W3_v6 m ρ c, W3_v8 m ρ c, W3_v16 m ρ c, W3_arg5 m ρ c]
  rfl

theorem W6_v40 (c : Dev nD) : Gen.W6 (F := Ideal) m ρ c (Proc.devRef .tc main_v40) = KSpec.w23 (m ((c.tc : Thread nD τ).loc main_arg6)) (m ((c.tc : Thread nD τ).loc main_arg8)) := by
  refine (fold1_v40 (W3 m ρ c)).trans ?_
  rw [W3_arg6 m ρ c, W3_arg8 m ρ c]

theorem W6_v41 (c : Dev nD) : Gen.W6 (F := Ideal) m ρ c (Proc.devRef .tc main_v41) = KSpec.b23 (m ((c.tc : Thread nD τ).loc main_arg7)) (m ((c.tc : Thread nD τ).loc main_arg9)) := by
  refine (fold1_v41 (W3 m ρ c)).trans ?_
  rw [W3_arg7 m ρ c, W3_arg9 m ρ c]

theorem W6_v15 (c : Dev nD) : Gen.W6 (F := Ideal) m ρ c (Proc.devRef .tc main_v15) = KSpec.dinvOf (m ((c.tc : Thread nD τ).loc main_arg1)) (m ((c.tc : Thread nD τ).loc main_arg2)) :=
  (fold1_v15 (W3 m ρ c)).trans (W3_v15 m ρ c)

theorem W6_v3 (c : Dev nD) : Gen.W6 (F := Ideal) m ρ c (Proc.devRef .tc main_v3) = KSpec.rowOf (m ((c.tc : Thread nD τ).loc main_arg1)) :=
  (fold1_v3 (W3 m ρ c)).trans (W3_v3 m ρ c)

theorem W6_v6 (c : Dev nD) : Gen.W6 (F := Ideal) m ρ c (Proc.devRef .tc main_v6) = KSpec.colOf (m ((c.tc : Thread nD τ).loc main_arg1)) :=
  (fold1_v6 (W3 m ρ c)).trans (W3_v6 m ρ c)

theorem W6_v8 (c : Dev nD) : Gen.W6 (F := Ideal) m ρ c (Proc.devRef .tc main_v8) = KSpec.wOf (m ((c.tc : Thread nD τ).loc main_arg2)) :=
  (fold1_v8 (W3 m ρ c)).trans (W3_v8 m ρ c)

theorem W6_arg3 (c : Dev nD) : Gen.W6 (F := Ideal) m ρ c (Proc.devRef .tc main_arg3) = (m ((c.tc : Thread nD τ).loc main_arg3)) :=
  (fold1_arg3 (W3 m ρ c)).trans (W3_arg3 m ρ c)

/-! ## Across the second region: its output array is the product; every other buffer is kept -/

theorem W7_v42 (c : Dev nD) :
    Gen.W7 (F := Ideal) m ρ c (Proc.devRef .tc main_v42) = Dense.mm (KSpec.hidden (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5))) (KSpec.w23 (m ((c.tc : Thread nD τ).loc main_arg6)) (m ((c.tc : Thread nD τ).loc main_arg8))) := by
  refine (W7_arr m ρ c 2).trans ?_
  rw [RegionValue.region1 (V6 m ρ) c]
  show Dense.mm (W6 m ρ c (Proc.devRef .tc main_v39)) (W6 m ρ c (Proc.devRef .tc main_v40)) = _
  rw [W6_v39 m ρ c, W6_v40 m ρ c]

theorem W7_v15 (c : Dev nD) : Gen.W7 (F := Ideal) m ρ c (Proc.devRef .tc main_v15) = KSpec.dinvOf (m ((c.tc : Thread nD τ).loc main_arg1)) (m ((c.tc : Thread nD τ).loc main_arg2)) :=
  (W7_of_ne m ρ c main_v15 (by decide)).trans (W6_v15 m ρ c)

theorem W7_v3 (c : Dev nD) : Gen.W7 (F := Ideal) m ρ c (Proc.devRef .tc main_v3) = KSpec.rowOf (m ((c.tc : Thread nD τ).loc main_arg1)) :=
  (W7_of_ne m ρ c main_v3 (by decide)).trans (W6_v3 m ρ c)

theorem W7_v6 (c : Dev nD) : Gen.W7 (F := Ideal) m ρ c (Proc.devRef .tc main_v6) = KSpec.colOf (m ((c.tc : Thread nD τ).loc main_arg1)) :=
  (W7_of_ne m ρ c main_v6 (by decide)).trans (W6_v6 m ρ c)

theorem W7_v8 (c : Dev nD) : Gen.W7 (F := Ideal) m ρ c (Proc.devRef .tc main_v8) = KSpec.wOf (m ((c.tc : Thread nD τ).loc main_arg2)) :=
  (W7_of_ne m ρ c main_v8 (by decide)).trans (W6_v8 m ρ c)

theorem W7_arg3 (c : Dev nD) : Gen.W7 (F := Ideal) m ρ c (Proc.devRef .tc main_arg3) = (m ((c.tc : Thread nD τ).loc main_arg3)) :=
  (W7_of_ne m ρ c main_arg3 (by decide)).trans (W6_arg3 m ρ c)

theorem W7_v41 (c : Dev nD) : Gen.W7 (F := Ideal) m ρ c (Proc.devRef .tc main_v41) = KSpec.b23 (m ((c.tc : Thread nD τ).loc main_arg7)) (m ((c.tc : Thread nD τ).loc main_arg9)) :=
  (W7_of_ne m ρ c main_v41 (by decide)).trans (W6_v41 m ρ c)

/-! ## The result -/

/-- The result buffer at the last boundary of the run is `KSpec.out` of the arguments as launched. -/
theorem value (c : Dev nD) :
    Gen.W8 (F := Ideal) m ρ c (Proc.devRef .tc main_v71)
      = KSpec.out (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9)) := by
  refine (KTail.W8_v71 m ρ c).trans ?_
  rw [W7_v15 m ρ c, W7_v3 m ρ c, W7_v6 m ρ c, W7_v8 m ρ c, W7_v42 m ρ c, W7_v41 m ρ c, W7_arg3 m ρ c]
  rfl

/-- The run: it terminates without a fault, the result array at `KSpec.out` of the arguments, the arguments unchanged. -/
theorem run : θ_run defs (onTc (τ := τ) (main (F := Ideal))) ⟨m, fun _ => 0, ρ⟩ (fun r => ∀ c : Dev nD,
      r.2.mem ((c.tc : Thread nD τ).loc main_v71)
        = KSpec.out (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c).1.trans (value m ρ c), (h c).2⟩) (KRun.run_named m ρ)

end Cert.KernelIdeal.KChain

end
-- ==== Proof.RSpec.lean ====
/-
  The reference program's three graph-convolution layers, each recognised as the second spelling of the layer
  (`GcnHost.rLayer`): plain rows of the product gathered along the edges, each times its edge's whole coefficient
  `d (src) · w · d (dst)`, summed per destination, the bias row added. The reference recomputes the degrees and the
  per-node factor for every layer from the same operations; the three copies are one array.
-/
import proofs.«123815_j66589172957277_2_alg».proof.Proof.Gen.ReferenceIdeal.Read
import proofs.«123815_j66589172957277_2_alg».proof.Proof.LibGcnHost

noncomputable section

namespace Cert.ReferenceIdeal.RSpec

open Cert.ReferenceIdeal Cert.ReferenceIdeal.Gen Cert.ReferenceIdeal.Read Idealize.ShloMosaic

variable (x0 : FVec Ideal S50000x512 .f32) (x1 : IVec S2x800000 32) (x2 : FVec Ideal S800000 .f32)
  (x3 : FVec Ideal S50000x128 .f32) (x4 : FVec Ideal S512x128 .f32) (x5 : FVec Ideal S128 .f32)
  (x6 : FVec Ideal S128x128 .f32) (x7 : FVec Ideal S128 .f32) (x8 : FVec Ideal S128x128 .f32) (x9 : FVec Ideal S128 .f32)

/-- The source and destination entries with negative ones counted from the end. -/
def rowW : IVec S850000 32 := GcnHost.wrap 50000#32 bcast_S_S850000 (val_main_v3 (F := Ideal) x1)
def colW : IVec S850000 32 := GcnHost.wrap 50000#32 bcast_S_S850000 (val_main_v6 (F := Ideal) x1)

/-- The edge coefficients. -/
def nrm : FVec Ideal S850000 .f32 :=
  GcnHost.coef gather_S50000_S850000x1_S850000_n_0_n_n_0_1_1 bcast_S850000_S850000x1_0 (val_main_v15 (F := Ideal) x1 x2)
    (rowW x1) (colW x1) (val_main_v8 (F := Ideal) x2)

/-- One layer of the reference on an `[50000, 128]` array `X` with bias row `b`. -/
def layer (X : FVec Ideal S50000x128 .f32) (b : FVec Ideal S128 .f32) : FVec Ideal S50000x128 .f32 :=
  GcnHost.rLayer gather_S50000x128_S850000x1_S850000x128_1_0_n_n_0_1_1128 scatter_S50000x128_S850000x1_S850000x128_1_0_0_1
    bcast_S850000_S850000x1_0 bcast_S850000x1_S850000x128_0_1 bcast_S_S50000x128 bcast_S128_S1x128_1
    bcast_S1x128_S50000x128_0_1 (rowW x1) (val_main_v6 (F := Ideal) x1) X b (nrm x1 x2)

theorem v48_eq : val_main_v48 (F := Ideal) x0 x1 x2 x4 x5 = layer x1 x2 (val_main_v32 (F := Ideal) x0 x4) x5 := rfl

theorem v89_eq : val_main_v89 (F := Ideal) x0 x1 x2 x4 x5 x6 x7
    = layer x1 x2 (val_main_v73 (F := Ideal) x0 x1 x2 x4 x5 x6) x7 := rfl

theorem v129_eq : val_main_v129 (F := Ideal) x0 x1 x2 x4 x5 x8 x9
    = layer x1 x2 (val_main_v113 (F := Ideal) x0 x1 x2 x4 x5 x8) x9 := rfl

end Cert.ReferenceIdeal.RSpec

end
-- ==== Proof.BridgeShared.lean ====
/-
  What the two programs share before their layers: the edge lists with the self loops appended, the weights, and the
  per-node factor (the guarded reciprocal square root of the weighted in-degree). Both programs compute them by the
  same operations, so the kernel program's arrays ARE the reference's; and the factor is a nonnegative finite number
  at every node, whatever the inputs are.
-/
import proofs.«123815_j66589172957277_2_alg».proof.Proof.KSpec
import proofs.«123815_j66589172957277_2_alg».proof.Proof.RSpec

noncomputable section

namespace Cert.Bridge

open Idealize.ShloMosaic Idealize.ShloMosaic.ValueIdx
open Cert.ReferenceIdeal.Read

variable (x1 : IVec Cert.KernelIdeal.S2x800000 32) (x2 : FVec Ideal Cert.KernelIdeal.S800000 .f32)

theorem row_eq : Cert.KernelIdeal.KSpec.rowOf x1 = val_main_v3 (F := Ideal) x1 := rfl
theorem col_eq : Cert.KernelIdeal.KSpec.colOf x1 = val_main_v6 (F := Ideal) x1 := rfl
theorem w_eq : Cert.KernelIdeal.KSpec.wOf x2 = val_main_v8 (F := Ideal) x2 := rfl
theorem dinv_eq : Cert.KernelIdeal.KSpec.dinvOf x1 x2 = val_main_v15 (F := Ideal) x1 x2 := rfl

/-- The per-node factor is nonnegative and finite at every node. -/
theorem dinv_bounds (i : Cert.ReferenceIdeal.S50000.Idx) :
    0 ≤ val_main_v15 (F := Ideal) x1 x2 i ∧ val_main_v15 (F := Ideal) x1 x2 i ≠ ⊤ := by
  have h := GcnFold.guarded_rsqrt (val_main_v11 (F := Ideal) x1 x2 i)
  have e : val_main_v15 (F := Ideal) x1 x2 i
      = Scalar.select (Ideal.cmp .ogt (val_main_v11 (F := Ideal) x1 x2 i) 0) (Ideal.rsqrt (val_main_v11 (F := Ideal) x1 x2 i)) (0 : EReal) := by
    rw [val_main_v15_apply, val_main_v13_apply, val_main_v14_apply]
    have e0 : val_main_v12 (F := Ideal) i = (0 : EReal) := by
      rw [val_main_v12_apply, val_main_cst_1_apply]; exact Ideal.ofBits_zero_f32
    have e1 : val_main_call0_v1 (F := Ideal) i = (0 : EReal) := by
      rw [val_main_call0_v1_apply, val_main_call0_v0_apply, val_main_cst_2_apply]; exact Ideal.ofBits_zero_f32
    rw [e0, e1, Ideal.hostUnary_rsqrt_def]
    generalize val_main_v11 (F := Ideal) x1 x2 i = z
    have ec : ∀ z : EReal, FloatOps.cmpf (F := Ideal) (φ := .f32) .ogt z (0 : EReal) = Ideal.cmp .ogt z 0 := fun _ => rfl
    exact congrArg (fun c => Scalar.select c (Ideal.rsqrt z) (0 : EReal)) (ec z)
  rw [e]; exact h

end Cert.Bridge

end
-- ==== Proof.LibHalves.lean ====
/-
  Two arrays laid side by side, and a band of columns cut out again, read at an index.

  A concatenation of an `[K, C₁]` and an `[K, C₂]` array along the columns reads, at column `q' < C₁`, the first array
  at that column and, at column `C₁ + q`, the second at column `q`; likewise two vectors laid end to end. A slice of an
  `[N, C']` array that keeps every row and the columns `o … o + C - 1` reads, at column `q`, the array at column `o + q`.
  The target extent `C'` is a free parameter, so that a printed numeral (`256` for `128 + 128`) fits.
-/
import Idealize.ShloMosaic.Lib.ValueIdx
import Idealize.ShloMosaic.Lib.Pipeline.Value

namespace Cert.Halves

open Idealize.ShloMosaic Idealize.ShloMosaic.ValueIdx

variable {α : Type}

/-- Columns: a column of the left piece. -/
theorem concat_cols_left {K C1 C2 C' : ℕ} (x₁ : (⟨2, ![K, C1]⟩ : Shape).Idx → α) (x₂ : (⟨2, ![K, C2]⟩ : Shape).Idx → α)
    (h : Shape.Concatenates [⟨2, ![K, C1]⟩, ⟨2, ![K, C2]⟩] ⟨2, ![K, C']⟩ 1) (k : Fin K) (q : Fin C1) (q' : Fin C')
    (hq : q'.val = q.val) :
    concatenate ⟨2, ![K, C']⟩ 1 [⟨⟨2, ![K, C1]⟩, x₁⟩, ⟨⟨2, ![K, C2]⟩, x₂⟩] h (ix2 k q') = x₁ (ix2 k q) :=
  concatenate_pair_apply_left 1 x₁ x₂ h (ix2 k q') rfl (ix2 k q)
    (fun b => match b with | ⟨0, _⟩ => rfl | ⟨1, _⟩ => hq.symm)

/-- Columns: a column of the right piece. -/
theorem concat_cols_right {K C1 C2 C' : ℕ} (x₁ : (⟨2, ![K, C1]⟩ : Shape).Idx → α) (x₂ : (⟨2, ![K, C2]⟩ : Shape).Idx → α)
    (h : Shape.Concatenates [⟨2, ![K, C1]⟩, ⟨2, ![K, C2]⟩] ⟨2, ![K, C']⟩ 1) (k : Fin K) (q : Fin C2) (q' : Fin C')
    (hq : q'.val = C1 + q.val) :
    concatenate ⟨2, ![K, C']⟩ 1 [⟨⟨2, ![K, C1]⟩, x₁⟩, ⟨⟨2, ![K, C2]⟩, x₂⟩] h (ix2 k q') = x₂ (ix2 k q) :=
  concatenate_pair_apply_right 1 x₁ x₂ h (ix2 k q') rfl rfl (ix2 k q)
    (fun b => match b with | ⟨0, _⟩ => fun _ => rfl | ⟨1, _⟩ => fun hne => absurd rfl hne)
    (by show q.val + C1 = q'.val; omega)

/-- Vectors: an entry of the left piece. -/
theorem concat_vec_left {C1 C2 C' : ℕ} (x₁ : (⟨1, ![C1]⟩ : Shape).Idx → α) (x₂ : (⟨1, ![C2]⟩ : Shape).Idx → α)
    (h : Shape.Concatenates [⟨1, ![C1]⟩, ⟨1, ![C2]⟩] ⟨1, ![C']⟩ 0) (q : Fin C1) (q' : Fin C') (hq : q'.val = q.val) :
    concatenate ⟨1, ![C']⟩ 0 [⟨⟨1, ![C1]⟩, x₁⟩, ⟨⟨1, ![C2]⟩, x₂⟩] h (ix1 q') = x₁ (ix1 q) :=
  concatenate_pair_apply_left 0 x₁ x₂ h (ix1 q') rfl (ix1 q) (fun b => match b with | ⟨0, _⟩ => hq.symm)

/-- Vectors: an entry of the right piece. -/
theorem concat_vec_right {C1 C2 C' : ℕ} (x₁ : (⟨1, ![C1]⟩ : Shape).Idx → α) (x₂ : (⟨1, ![C2]⟩ : Shape).Idx → α)
    (h : Shape.Concatenates [⟨1, ![C1]⟩, ⟨1, ![C2]⟩] ⟨1, ![C']⟩ 0) (q : Fin C2) (q' : Fin C') (hq : q'.val = C1 + q.val) :
    concatenate ⟨1, ![C']⟩ 0 [⟨⟨1, ![C1]⟩, x₁⟩, ⟨⟨1, ![C2]⟩, x₂⟩] h (ix1 q') = x₂ (ix1 q) :=
  concatenate_pair_apply_right 0 x₁ x₂ h (ix1 q') rfl rfl (ix1 q)
    (fun b => match b with | ⟨0, _⟩ => fun hne => absurd rfl hne)
    (by show q.val + C1 = q'.val; omega)

/-- A band of columns: every row kept, the columns from `o` on. -/
theorem slice_cols {N C C' : ℕ} (o : ℕ) (A : (⟨2, ![N, C']⟩ : Shape).Idx → α)
    (h : (⟨2, ![N, C']⟩ : Shape).Slices ![0, o] ⟨2, ![N, C]⟩) (p : Fin N) (q : Fin C) (q' : Fin C')
    (hq : q'.val = o + q.val) :
    extractStridedSlice ⟨2, ![N, C]⟩ ![0, o] A h (ix2 p q) = A (ix2 p q') :=
  extractStridedSlice_apply ![0, o] A h (ix2 p q) (ix2 p q')
    (fun a => match a with
      | ⟨0, _⟩ => by show p.val = 0 + p.val; omega
      | ⟨1, _⟩ => hq)

end Cert.Halves
-- ==== Proof.BridgeLayers.lean ====
/-
  The layers of the two programs are the same arrays.

  The hidden layer: both programs apply one graph-convolution layer to the product `x · W1` and rectify; the kernel
  program in the spelling that scales rows before and after the sum over edges, the reference in the spelling with
  whole edge coefficients; the bridge between the spellings makes them one `[50000, 128]` array.
  The second layer: the kernel program multiplies the hidden layer by the two weight matrices side by side and runs
  ONE layer of width 256; the reference runs two layers of width 128. Column `q` of the left half is the reference's
  layer with `W2, b2`, column `128 + q` the reference's layer with `W3, b3`: a column of a product with two matrices
  side by side is the column of the product with the matrix it falls in.
-/
import proofs.«123815_j66589172957277_2_alg».proof.Proof.BridgeShared
import proofs.«123815_j66589172957277_2_alg».proof.Proof.LibHalves
import proofs.«123815_j66589172957277_2_alg».proof.Proof.LibDense

open scoped BigOperators

noncomputable section

namespace Cert.Bridge

open Idealize.ShloMosaic Idealize.ShloMosaic.ValueIdx
open Cert.ReferenceIdeal.Read

variable (x0 : FVec Ideal Cert.KernelIdeal.S50000x512 .f32) (x1 : IVec Cert.KernelIdeal.S2x800000 32) (x2 : FVec Ideal Cert.KernelIdeal.S800000 .f32)
  (x3 : FVec Ideal Cert.KernelIdeal.S50000x128 .f32) (x4 : FVec Ideal Cert.KernelIdeal.S512x128 .f32) (x5 : FVec Ideal Cert.KernelIdeal.S128 .f32)
  (x6 : FVec Ideal Cert.KernelIdeal.S128x128 .f32) (x7 : FVec Ideal Cert.KernelIdeal.S128 .f32) (x8 : FVec Ideal Cert.KernelIdeal.S128x128 .f32)
  (x9 : FVec Ideal Cert.KernelIdeal.S128 .f32)

/-- A wrapped destination entry of an edge that arrives at `p` names `p`. -/
theorem colW_node (e : Fin 850000) (p : Fin 50000)
    (h : (val_main_v6 (F := Ideal) x1 (ix1 e)).toInt = (p.val : Int)) :
    GcnHost.node (N := 50000) (by decide) (Cert.ReferenceIdeal.RSpec.colW x1 (ix1 e)) = p :=
  GcnHost.node_wrap (by decide) 50000#32 Cert.ReferenceIdeal.Facts₀.bcast_S_S850000 (val_main_v6 (F := Ideal) x1) e p h

/-- The kernel program's first-layer spelling at width `C'` against the reference's layer, column by column. -/
theorem layer1_bridge (X' : FVec Ideal Cert.KernelIdeal.S50000x128 .f32) (X : FVec Ideal Cert.ReferenceIdeal.S50000x128 .f32)
    (b' : FVec Ideal Cert.KernelIdeal.S128 .f32) (b : FVec Ideal Cert.ReferenceIdeal.S128 .f32)
    (hX : ∀ (j : Fin 50000) (q : Fin 128), X' (ix2 j q) = X (ix2 j q)) (hb : ∀ q : Fin 128, b' (ix1 q) = b (ix1 q))
    (p : Fin 50000) (q : Fin 128) :
    Cert.KernelIdeal.KSpec.layer1 (Cert.KernelIdeal.KSpec.dinvOf x1 x2) (Cert.KernelIdeal.KSpec.rowOf x1) (Cert.KernelIdeal.KSpec.colOf x1) (Cert.KernelIdeal.KSpec.wOf x2) X' b' (ix2 p q)
      = Cert.ReferenceIdeal.RSpec.layer x1 x2 X b (ix2 p q) := by
  rw [dinv_eq, row_eq, col_eq, w_eq]
  exact GcnHost.layer_bridge (N := 50000) (C := 128) (C' := 128) (M := 850000) (by decide) _ _ _ _ _ _ _ _ _ _ _ _ _ _ _ _ _
    rfl rfl rfl rfl rfl rfl rfl rfl rfl rfl rfl rfl rfl rfl rfl rfl rfl rfl rfl rfl rfl rfl rfl rfl rfl rfl rfl rfl rfl
    _ _ _ _ _ X' b' X b (fun i => dinv_bounds x1 x2 i) (fun e p h => colW_node x1 e p h) id hX hb p q

/-- The same at double width: column `emb q` of the kernel program's second layer against column `q` of a layer of the
    reference, when the arrays and bias rows agree along `emb`. -/
theorem layer2_bridge (X' : FVec Ideal Cert.KernelIdeal.S50000x256 .f32) (X : FVec Ideal Cert.ReferenceIdeal.S50000x128 .f32)
    (b' : FVec Ideal Cert.KernelIdeal.S256 .f32) (b : FVec Ideal Cert.ReferenceIdeal.S128 .f32) (emb : Fin 128 → Fin 256)
    (hX : ∀ (j : Fin 50000) (q : Fin 128), X' (ix2 j (emb q)) = X (ix2 j q)) (hb : ∀ q : Fin 128, b' (ix1 (emb q)) = b (ix1 q))
    (p : Fin 50000) (q : Fin 128) :
    Cert.KernelIdeal.KSpec.layer2 (Cert.KernelIdeal.KSpec.dinvOf x1 x2) (Cert.KernelIdeal.KSpec.rowOf x1) (Cert.KernelIdeal.KSpec.colOf x1) (Cert.KernelIdeal.KSpec.wOf x2) X' b' (ix2 p (emb q))
      = Cert.ReferenceIdeal.RSpec.layer x1 x2 X b (ix2 p q) := by
  rw [dinv_eq, row_eq, col_eq, w_eq]
  exact GcnHost.layer_bridge (N := 50000) (C := 128) (C' := 256) (M := 850000) (by decide) _ _ _ _ _ _ _ _ _ _ _ _ _ _ _ _ _
    rfl rfl rfl rfl rfl rfl rfl rfl rfl rfl rfl rfl rfl rfl rfl rfl rfl rfl rfl rfl rfl rfl rfl rfl rfl rfl rfl rfl rfl
    _ _ _ _ _ X' b' X b (fun i => dinv_bounds x1 x2 i) (fun e p h => colW_node x1 e p h) emb hX hb p q

/-- The reference's products are the plain matrix products. -/
theorem v32_eq : val_main_v32 (F := Ideal) x0 x4 = Dense.mm x0 x4 :=
  Dense.hostDot_eq_mm _ rfl rfl rfl rfl rfl rfl none x0 x4
theorem v73_eq : val_main_v73 (F := Ideal) x0 x1 x2 x4 x5 x6 = Dense.mm (val_main_v49 (F := Ideal) x0 x1 x2 x4 x5) x6 :=
  Dense.hostDot_eq_mm _ rfl rfl rfl rfl rfl rfl none _ x6
theorem v113_eq : val_main_v113 (F := Ideal) x0 x1 x2 x4 x5 x8 = Dense.mm (val_main_v49 (F := Ideal) x0 x1 x2 x4 x5) x8 :=
  Dense.hostDot_eq_mm _ rfl rfl rfl rfl rfl rfl none _ x8

/-- THE HIDDEN LAYER of the kernel program is the reference's. -/
theorem hidden_eq : Cert.KernelIdeal.KSpec.hidden x0 x1 x2 x4 x5 = val_main_v49 (F := Ideal) x0 x1 x2 x4 x5 := by
  show Cert.KernelIdeal.KSpec.relu _ = Cert.KernelIdeal.KSpec.relu (val_main_v48 (F := Ideal) x0 x1 x2 x4 x5)
  refine congrArg _ ?_
  funext i
  obtain ⟨p, q, rfl⟩ : ∃ (p : Fin 50000) (q : Fin 128), i = ix2 p q := ⟨i 0, i 1, eq_ix2 i⟩
  rw [Cert.ReferenceIdeal.RSpec.v48_eq, v32_eq]
  exact layer1_bridge x1 x2 _ _ _ _ (fun _ _ => rfl) (fun _ => rfl) p q

/-- Column `q` of the left half, column `128 + q` of the right half. -/
def embL (q : Fin 128) : Fin 256 := ⟨q.val, by omega⟩
def embR (q : Fin 128) : Fin 256 := ⟨128 + q.val, by omega⟩

/-- The wide second layer of the kernel program, on the product with the two weight matrices side by side. -/
def wide : FVec Ideal Cert.KernelIdeal.S50000x256 .f32 :=
  Cert.KernelIdeal.KSpec.layer2 (Cert.KernelIdeal.KSpec.dinvOf x1 x2) (Cert.KernelIdeal.KSpec.rowOf x1) (Cert.KernelIdeal.KSpec.colOf x1) (Cert.KernelIdeal.KSpec.wOf x2)
    (Dense.mm (Cert.KernelIdeal.KSpec.hidden x0 x1 x2 x4 x5) (Cert.KernelIdeal.KSpec.w23 x6 x8)) (Cert.KernelIdeal.KSpec.b23 x7 x9)

/-- Its left half is the reference's layer with `W2, b2` (the mean). -/
theorem wide_left (p : Fin 50000) (q : Fin 128) :
    wide x0 x1 x2 x4 x5 x6 x7 x8 x9 (ix2 p (embL q)) = val_main_v89 (F := Ideal) x0 x1 x2 x4 x5 x6 x7 (ix2 p q) := by
  rw [Cert.ReferenceIdeal.RSpec.v89_eq, v73_eq]
  refine layer2_bridge x1 x2 _ _ _ _ embL (fun j q => ?_) (fun q => ?_) p q
  · rw [Dense.mm_apply, Dense.mm_apply, hidden_eq]
    refine Finset.sum_congr rfl fun k _ => ?_
    unfold Cert.KernelIdeal.KSpec.w23
    rw [Halves.concat_cols_left x6 x8 _ k q (embL q) rfl]
  · unfold Cert.KernelIdeal.KSpec.b23
    exact Halves.concat_vec_left x7 x9 _ q (embL q) rfl

/-- Its right half is the reference's layer with `W3, b3` (the log of the deviation). -/
theorem wide_right (p : Fin 50000) (q : Fin 128) :
    wide x0 x1 x2 x4 x5 x6 x7 x8 x9 (ix2 p (embR q)) = val_main_v129 (F := Ideal) x0 x1 x2 x4 x5 x8 x9 (ix2 p q) := by
  rw [Cert.ReferenceIdeal.RSpec.v129_eq, v113_eq]
  refine layer2_bridge x1 x2 _ _ _ _ embR (fun j q => ?_) (fun q => ?_) p q
  · rw [Dense.mm_apply, Dense.mm_apply, hidden_eq]
    refine Finset.sum_congr rfl fun k _ => ?_
    unfold Cert.KernelIdeal.KSpec.w23
    rw [Halves.concat_cols_right x6 x8 _ k q (embR q) rfl]
  · unfold Cert.KernelIdeal.KSpec.b23
    exact Halves.concat_vec_right x7 x9 _ q (embR q) rfl

end Cert.Bridge

end
-- ==== Proof.BridgeOut.lean ====
/-
  The results of the two programs are the same array: the kernel program cuts the wide second layer into its two
  halves of columns, the reference has the two halves as separate layers; from there both compute
  `mean + eps · exp (min logdev 10)` entry by entry.
-/
import proofs.«123815_j66589172957277_2_alg».proof.Proof.BridgeLayers

noncomputable section

namespace Cert.Bridge

open Idealize.ShloMosaic Idealize.ShloMosaic.ValueIdx
open Cert.ReferenceIdeal.Read

variable (x0 : FVec Ideal Cert.KernelIdeal.S50000x512 .f32) (x1 : IVec Cert.KernelIdeal.S2x800000 32) (x2 : FVec Ideal Cert.KernelIdeal.S800000 .f32)
  (x3 : FVec Ideal Cert.KernelIdeal.S50000x128 .f32) (x4 : FVec Ideal Cert.KernelIdeal.S512x128 .f32) (x5 : FVec Ideal Cert.KernelIdeal.S128 .f32)
  (x6 : FVec Ideal Cert.KernelIdeal.S128x128 .f32) (x7 : FVec Ideal Cert.KernelIdeal.S128 .f32) (x8 : FVec Ideal Cert.KernelIdeal.S128x128 .f32)
  (x9 : FVec Ideal Cert.KernelIdeal.S128 .f32)

/-- The tail of the kernel program at an entry, over any wide array `A`. -/
theorem tail_apply (A : FVec Ideal Cert.KernelIdeal.S50000x256 .f32) (p : Fin 50000) (q : Fin 128) :
    Cert.KernelIdeal.KSpec.tail A x3 (ix2 p q)
      = A (ix2 p (embL q)) + x3 (ix2 p q) * Ideal.exp (min (A (ix2 p (embR q))) (Ideal.ofBits .f32 0x41200000#32)) := by
  unfold Cert.KernelIdeal.KSpec.tail
  rw [addf_apply, mulf_apply, Halves.slice_cols 0 A _ p q (embL q) (by show q.val = 0 + q.val; omega)]
  show _ + _ * FloatOps.hostUnary .exp (minimumf _ _ (ix2 p q)) = _
  rw [minimumf_apply, Halves.slice_cols 128 A _ p q (embR q) rfl, HostLayout.bcast_scalar_mat, constant_apply,
    Ideal.hostUnary_exp_def]

/-- The tail of the reference at an entry, over any two arrays `B2` (the mean) and `B3` (the log of the deviation). -/
theorem ref_tail_apply (B2 B3 : FVec Ideal Cert.ReferenceIdeal.S50000x128 .f32) (p : Fin 50000) (q : Fin 128) :
    addf B2 (mulf x3 (Host.exp (minimumf B3 (val_main_v130 (F := Ideal))))) (ix2 p q)
      = B2 (ix2 p q) + x3 (ix2 p q) * Ideal.exp (min (B3 (ix2 p q)) (Ideal.ofBits .f32 0x41200000#32)) := by
  rw [addf_apply, mulf_apply]
  show _ + _ * FloatOps.hostUnary .exp (minimumf _ _ (ix2 p q)) = _
  rw [minimumf_apply, val_main_v130_apply, val_main_cst_29_apply, Ideal.hostUnary_exp_def]
  rfl

/-- THE RESULT of the kernel program is the reference's. -/
theorem out_eq : Cert.KernelIdeal.KSpec.out x0 x1 x2 x3 x4 x5 x6 x7 x8 x9
    = val_main_v134 (F := Ideal) x0 x1 x2 x3 x4 x5 x6 x7 x8 x9 := by
  funext i
  obtain ⟨p, q, rfl⟩ : ∃ (p : Fin 50000) (q : Fin 128), i = ix2 p q := ⟨i 0, i 1, eq_ix2 i⟩
  have hK : Cert.KernelIdeal.KSpec.out x0 x1 x2 x3 x4 x5 x6 x7 x8 x9 = Cert.KernelIdeal.KSpec.tail (wide x0 x1 x2 x4 x5 x6 x7 x8 x9) x3 := rfl
  have hR : val_main_v134 (F := Ideal) x0 x1 x2 x3 x4 x5 x6 x7 x8 x9
      = addf (val_main_v89 (F := Ideal) x0 x1 x2 x4 x5 x6 x7)
          (mulf x3 (Host.exp (minimumf (val_main_v129 (F := Ideal) x0 x1 x2 x4 x5 x8 x9) (val_main_v130 (F := Ideal))))) := rfl
  rw [hK, hR, tail_apply, ref_tail_apply, wide_left, wide_right]

end Cert.Bridge

end
-- ==== Proof.lean ====
/-
  The certificate: a two-layer graph-convolutional variational encoder, the kernel program against its reference.

  Both programs build the edge lists with a self loop per node, the weighted in-degrees and the per-node factor
  `d = 1/√deg` (zero where the degree is not positive), and compute
  `mean + eps · exp (min logdev 10)` from two graph-convolution layers on a rectified first layer; a layer maps `X` to
  `Σ over the edges arriving at p of d (src) · w · d (dst) · (X · W) (src, ·) + b`.
  The kernel program forms the products `X · W` in tiled matrix-product regions (ten blocks of 5000 rows), scales
  the rows of the product by `d` before gathering them along the edges and the rows of the sum by `d` afterwards,
  and runs the last two layers as ONE layer of double width on `[W2 | W3]`. The reference multiplies each gathered row
  by its edge's whole coefficient and runs the two layers separately. On the edges that arrive at a node the
  destination factor is one nonnegative finite number, which distributes over a sum of extended reals whatever the
  summands are; so the two programs end with the same array for ALL inputs, and the precondition is not used.

  The frames of the two kernel programs are the generated ones; the reference's frame is its generated run with the
  result dropped; nothing was rewritten by the idealization, so `preserves` is trivial.
-/
import proofs.«123815_j66589172957277_2_alg».proof.Defs
import proofs.«123815_j66589172957277_2_alg».proof.Proof.Gen.Kernel
import proofs.«123815_j66589172957277_2_alg».proof.Proof.Gen.Kernel.Skeleton
import proofs.«123815_j66589172957277_2_alg».proof.Proof.Gen.Kernel.Launch
import proofs.«123815_j66589172957277_2_alg».proof.Proof.Gen.Kernel.Points
import proofs.«123815_j66589172957277_2_alg».proof.Proof.Gen.Kernel.Frame
import proofs.«123815_j66589172957277_2_alg».proof.Proof.Gen.KernelIdeal
import proofs.«123815_j66589172957277_2_alg».proof.Proof.Gen.KernelIdeal.Skeleton
import proofs.«123815_j66589172957277_2_alg».proof.Proof.Gen.KernelIdeal.Launch
import proofs.«123815_j66589172957277_2_alg».proof.Proof.Gen.KernelIdeal.Points
import proofs.«123815_j66589172957277_2_alg».proof.Proof.Gen.KernelIdeal.Frame
import proofs.«123815_j66589172957277_2_alg».proof.Proof.Gen.ReferenceIdeal
import proofs.«123815_j66589172957277_2_alg».proof.Proof.Gen.ReferenceIdeal.Run
import proofs.«123815_j66589172957277_2_alg».proof.Proof.Gen.ReferenceIdeal.Read
import proofs.«123815_j66589172957277_2_alg».proof.Proof.Gen.Pre_finite_inputs
import proofs.«123815_j66589172957277_2_alg».proof.Proof.KChain
import proofs.«123815_j66589172957277_2_alg».proof.Proof.BridgeOut
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at the kernel program's whole-array function of the arguments: the kernel
    program by its run read back through its two regions, the reference because its composed term is that function. -/
theorem algebraic : Cert.algebraic_KernelIdeal_ReferenceIdeal := by
  intro m ρ m' ρ' _ hagree
  refine ⟨fun c => Cert.KernelIdeal.KSpec.out
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)),
    Cert.KernelIdeal.KChain.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v134_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2]
  exact (Cert.Bridge.out_eq _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
